-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩

abbrev nBuf : Space → Nat
  | .hbm => 63
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S128x128, .bf16⟩
  | .hbm, ⟨28, _⟩ => ⟨S128x40, .bf16⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S50000x1, .f32⟩
  | .hbm, ⟨45, _⟩ => ⟨S1x128, .f32⟩
  | .hbm, ⟨46, _⟩ => ⟨S50000x40, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x40, .f32⟩
  | .hbm, ⟨56, _⟩ => ⟨S_, .f32⟩
  | .hbm, ⟨57, _⟩ => ⟨S50000x40, .f32⟩
  | .hbm, ⟨58, _⟩ => ⟨S850000x1, .i32⟩
  | .hbm, ⟨59, _⟩ => ⟨S50000x40, .f32⟩
  | .hbm, ⟨60, _⟩ => ⟨S50000x1, .f32⟩
  | .hbm, ⟨61, _⟩ => ⟨S1x40, .f32⟩
  | .hbm, ⟨62, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x40, .bf16⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x1, .f32⟩
  | .local _ .vmem, ⟨18, _⟩ => ⟨S5000x1, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .bf16 = 32 ∨ (Rect.block (s := S128x40) S128x40.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S50000x40.size a
  hwx1_4 : ∀ i : grid1.Coords, EltTy.bits .f32 = 32 ∨ (Rect.block (s := S50000x40) S5000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x40, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x40, .f32⟩
  | 115 => ⟨S850000x1, .f32⟩
  | 116 => ⟨S850000x40, .f32⟩
  | 117 => ⟨S850000x40, .f32⟩
  | 118 => ⟨S_, .f32⟩
  | 119 => ⟨S50000x40, .f32⟩
  | 120 => ⟨S850000x1, .i32⟩
  | 121 => ⟨S50000x40, .f32⟩
  | 122 => ⟨S1x40, .f32⟩
  | 123 => ⟨S50000x40, .f32⟩
  | 124 => ⟨S50000x40, .f32⟩
  | 125 => ⟨S_, .f32⟩
  | 126 => ⟨S50000x40, .f32⟩
  | 127 => ⟨S50000x40, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x40, .f32⟩
  | 7 => ⟨S50000x40, .f32⟩
  | 8 => ⟨S50000x40, .f32⟩
  | 9 => ⟨S_, .f32⟩
  | 10 => ⟨S50000, .f32⟩
  | 11 => ⟨S50000x1, .f32⟩
  | 12 => ⟨S50000x1, .f32⟩
  | 13 => ⟨S50000x40, .f32⟩
  | 14 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_call4_cst : Ref sig .tc := ⟨.hbm, 128, rfl⟩
abbrev main_call4_v0 : Ref sig .tc := ⟨.hbm, 129, rfl⟩
abbrev main_call4_cst_0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_cst_1 : Ref sig .tc := ⟨.hbm, 137, rfl⟩
abbrev main_call4_v7 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KRun.lean ====
/-
  The idealized kernel's run with its result named.

  The program is three row-tiled regions among stretches of host operations. Every weakly fair execution from a
  memory with zero counters terminates without a fault; in the final state the result buffer holds what the last
  region's write-backs leave in its output array (the fold of the program's segments from the launch memory, read
  at that buffer), and the six argument arrays are as launched: no host operation and no region writes one.
-/
import proofs.«172077_j42563125903764_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole program: termination, no fault, the result buffer at the contents the segments' fold
    gives it after the last region, and every argument unchanged. The thread state carried through the segments
    holds every unscoped buffer at the boundary's contents; read against the final state it gives each buffer's
    final contents, the result's among them. -/
theorem run_result : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KHost.lean ====
import proofs.«172077_j42563125903764_2_alg».proof.Proof.Gen.KernelIdeal.Frame
import Idealize.ShloMosaic.Lib.StableHlo.Run
import Idealize.ShloMosaic.PureOps.Ideal

/-!
# The host side of the kernel program, read as functions of its arguments

Between its three pipelined regions the program prepares, on the host, everything the regions consume
besides the feature matrix and the weights:

* the edge list with one self loop per node appended: source nodes `rowIdx`, destination nodes `colIdx`
  (850000 = 800000 edges + 50000 loops);
* the in-degree of every node, as a sum of ones over the destination column, and from it the
  normalising coefficient `coeff v = 1 / sqrt (deg v)` where the degree is positive and `0` elsewhere;
* after each of the first two regions, the aggregation of that region's result over the edges:
  row `v` of the aggregate is the sum, over the edges whose destination is `v`, of the row of the
  region's result at the edge's source (a row gather followed by a row scatter-add into zeros).

Every statement below says what one buffer holds at a boundary between a host stretch and a region,
as a composition of the printed operations applied to the launch contents of the six arguments.
Nothing here looks inside a region: a region's result stays the opaque contents of its buffer.
-/

noncomputable section

namespace Cert.KernelIdeal.HostValue

open Cert.KernelIdeal Cert.KernelIdeal.Gen Idealize.ShloMosaic Idealize.ShloMosaic.TcCoe Idealize.SL.Sem
open Idealize.ShloMosaic.StableHlo

/-! ## The index vectors and the coefficient, as functions of the edge list -/

/-- Source node of every edge (row 0 of the edge list), then every node once: the self loops. -/
def rowIdx (x1 : IVec S2x800000 32) : IVec S850000 32 :=
  concatenate S850000 0
    [⟨S800000, shapeCast S800000 (extractStridedSlice S1x800000 ![0, 0] x1 slices_S2x800000_S1x800000_0_0)
        shapeCasts_S1x800000_S800000⟩,
     ⟨S50000, iotaInDim S50000 32 0⟩] concatenates_S800000_S50000_S850000_d0

/-- Destination node of every edge (row 1 of the edge list), then every node once. -/
def colIdx (x1 : IVec S2x800000 32) : IVec S850000 32 :=
  concatenate S850000 0
    [⟨S800000, shapeCast S800000 (extractStridedSlice S1x800000 ![1, 0] x1 slices_S2x800000_S1x800000_1_0)
        shapeCasts_S1x800000_S800000⟩,
     ⟨S50000, iotaInDim S50000 32 0⟩] concatenates_S800000_S50000_S850000_d0

/-- The destinations as a one-column table: the row each edge adds into. -/
def scatterIdx (x1 : IVec S2x800000 32) : IVec S850000x1 32 :=
  broadcastInDim S850000x1 ![0] bcast_S850000_S850000x1_0 (colIdx x1)

/-- The sources as a one-column table, a negative entry counted from the end (shifted by the
    number of nodes): the row each edge reads. -/
def gatherIdx (x1 : IVec S2x800000 32) : IVec S850000x1 32 :=
  broadcastInDim S850000x1 ![0] bcast_S850000_S850000x1_0
    (select (cmpi .slt (rowIdx x1) (broadcastInDim S850000 ![] bcast_S_S850000 (constantI S_ 32 0#32)))
      (addi (rowIdx x1) (broadcastInDim S850000 ![] bcast_S_S850000 (constantI S_ 32 50000#32)))
      (rowIdx x1))

/-- In-degree with self loops: entry `v` is the sum of a one per edge whose destination is `v`. -/
def deg (x1 : IVec S2x800000 32) : FVec Ideal S50000 .f32 :=
  Host.scatterAdd scatter_S50000_S850000x1_S850000_n_0_0_1
    (broadcastInDim S50000 ![] bcast_S_S50000 (constant (F := Ideal) S_ .f32 0x00000000#32))
    (scatterIdx x1)
    (broadcastInDim S850000 ![] bcast_S_S850000 (constant (F := Ideal) S_ .f32 0x3F800000#32))

/-- The normalising coefficient: the inverse square root of the degree where the degree is
    positive, zero elsewhere. -/
def coeff (x1 : IVec S2x800000 32) : FVec Ideal S50000 .f32 :=
  select (cmpf .ogt (deg x1) (broadcastInDim S50000 ![] bcast_S_S50000 (constant (F := Ideal) S_ .f32 0x00000000#32)))
    (Host.rsqrt (deg x1))
    (broadcastInDim S50000 ![] bcast_S_S50000 (id (constant (F := Ideal) S_ .f32 0x00000000#32)))

/-- The coefficient as a one-column matrix: what each region multiplies its rows by. -/
def coeffCol (x1 : IVec S2x800000 32) : FVec Ideal S50000x1 .f32 :=
  shapeCast S50000x1 (coeff x1) shapeCasts_S50000_S50000x1

variable (m : (ℓ : Loc nD τ sig) → Buf (Elt Ideal) ℓ) (ρ : Dev nD → PrngReg) (c : Dev nD)

/-! ## The first host stretch: degree, its comparison with zero and its inverse square root -/

set_option maxHeartbeats 400000 in
theorem W1_main_v12 : Gen.W1 m ρ c (Proc.devRef .tc main_v12)
    = cmpf .ogt (deg (m ((c : Thread nD τ).loc main_arg1)))
        (broadcastInDim S50000 ![] bcast_S_S50000 (constant (F := Ideal) S_ .f32 0x00000000#32)) := by
  show StableHlo.after hostOps0 (Gen.W0 m ρ c) (Proc.devRef .tc main_v12) = _
  after_results
  rfl

set_option maxHeartbeats 400000 in
theorem W1_main_v13 : Gen.W1 m ρ c (Proc.devRef .tc main_v13) = Host.rsqrt (deg (m ((c : Thread nD τ).loc main_arg1))) := by
  show StableHlo.after hostOps0 (Gen.W0 m ρ c) (Proc.devRef .tc main_v13) = _
  after_results
  rfl

set_option maxHeartbeats 400000 in
theorem W1_main_cst_2 : Gen.W1 m ρ c (Proc.devRef .tc main_cst_2) = constant (F := Ideal) S_ .f32 0x00000000#32 := by
  show StableHlo.after hostOps0 (Gen.W0 m ρ c) (Proc.devRef .tc main_cst_2) = _
  after_results

/-! ## The called selection, with its operands read at their own buffers

The call's three operations are stated over typed references. A typed reference transports contents along
the equation between its buffer's type and the value's type; at each of these buffers the two types are the
same, the transport is the identity, and the three operations are the plain ones over the buffers. -/

set_option maxHeartbeats 50000 in
theorem hostOps0_1_plain : (hostOps0_1 : List (HloOp τ sig (Elt Ideal)))
    = [ StableHlo.unary main_cst_2 main_call0_v0 (id : (⟨S_, .f32⟩ : BufTy).Contents (Elt Ideal) → (⟨S_, .f32⟩ : BufTy).Contents (Elt Ideal)),
        StableHlo.unary main_call0_v0 main_call0_v1 (broadcastInDim S50000 ![] bcast_S_S50000 : (⟨S_, .f32⟩ : BufTy).Contents (Elt Ideal) → (⟨S50000, .f32⟩ : BufTy).Contents (Elt Ideal)),
        StableHlo.ternary main_v12 main_v13 main_call0_v1 main_v14 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

set_option maxHeartbeats 100000 in
theorem W2_main_v14 : Gen.W2 m ρ c (Proc.devRef .tc main_v14) = coeff (m ((c : Thread nD τ).loc main_arg1)) := by
  have h12 := W1_main_v12 m ρ c
  have h13 := W1_main_v13 m ρ c
  have hc := W1_main_cst_2 m ρ c
  show StableHlo.after hostOps0_1 (Gen.W1 m ρ c) (Proc.devRef .tc main_v14) = _
  rw [hostOps0_1_plain]
  generalize Gen.W1 m ρ c = V at h12 h13 hc ⊢
  after_results
  rw [h12, h13, hc]
  rfl

/-! ## At the first region's entry

No host stretch before the first region writes an argument. The first stretch writes the two index vectors,
the third the two weight matrices narrowed to the matmul's input format and the coefficient as a column. -/

set_option maxHeartbeats 400000 in
theorem W3_main_arg0 : Gen.W3 m ρ c (Proc.devRef .tc main_arg0) = m ((c : Thread nD τ).loc main_arg0) := by
  show StableHlo.after hostOps0_2 (StableHlo.after hostOps0_1 (StableHlo.after hostOps0 (Gen.W0 m ρ c))) (Proc.devRef .tc main_arg0) = _
  after_results

set_option maxHeartbeats 400000 in
theorem W3_main_arg3 : Gen.W3 m ρ c (Proc.devRef .tc main_arg3) = m ((c : Thread nD τ).loc main_arg3) := by
  show StableHlo.after hostOps0_2 (StableHlo.after hostOps0_1 (StableHlo.after hostOps0 (Gen.W0 m ρ c))) (Proc.devRef .tc main_arg3) = _
  after_results

set_option maxHeartbeats 400000 in
theorem W3_main_arg5 : Gen.W3 m ρ c (Proc.devRef .tc main_arg5) = m ((c : Thread nD τ).loc main_arg5) := by
  show StableHlo.after hostOps0_2 (StableHlo.after hostOps0_1 (StableHlo.after hostOps0 (Gen.W0 m ρ c))) (Proc.devRef .tc main_arg5) = _
  after_results

set_option maxHeartbeats 400000 in
theorem W3_main_v5 : Gen.W3 m ρ c (Proc.devRef .tc main_v5) = rowIdx (m ((c : Thread nD τ).loc main_arg1)) := by
  show StableHlo.after hostOps0_2 (StableHlo.after hostOps0_1 (StableHlo.after hostOps0 (Gen.W0 m ρ c))) (Proc.devRef .tc main_v5) = _
  after_results
  rfl

set_option maxHeartbeats 400000 in
theorem W3_main_v6 : Gen.W3 m ρ c (Proc.devRef .tc main_v6) = colIdx (m ((c : Thread nD τ).loc main_arg1)) := by
  show StableHlo.after hostOps0_2 (StableHlo.after hostOps0_1 (StableHlo.after hostOps0 (Gen.W0 m ρ c))) (Proc.devRef .tc main_v6) = _
  after_results
  rfl

set_option maxHeartbeats 100000 in
theorem W3_main_v14 : Gen.W3 m ρ c (Proc.devRef .tc main_v14) = coeff (m ((c : Thread nD τ).loc main_arg1)) := by
  have h := W2_main_v14 m ρ c
  show StableHlo.after hostOps0_2 (Gen.W2 m ρ c) (Proc.devRef .tc main_v14) = _
  generalize Gen.W2 m ρ c = V at h ⊢
  after_results
  exact h

set_option maxHeartbeats 400000 in
theorem W3_main_v15 : Gen.W3 m ρ c (Proc.devRef .tc main_v15)
    = (truncf (F := Ideal) .bf16 ((m ((c : Thread nD τ).loc main_arg2)) : FVec Ideal S128x128 .f32) bitsLt_bf16_f32 : FVec Ideal S128x128 .bf16) := by
  show StableHlo.after hostOps0_2 (StableHlo.after hostOps0_1 (StableHlo.after hostOps0 (Gen.W0 m ρ c))) (Proc.devRef .tc main_v15) = _
  after_results

set_option maxHeartbeats 400000 in
theorem W3_main_v16 : Gen.W3 m ρ c (Proc.devRef .tc main_v16)
    = (truncf (F := Ideal) .bf16 ((m ((c : Thread nD τ).loc main_arg4)) : FVec Ideal S128x40 .f32) bitsLt_bf16_f32 : FVec Ideal S128x40 .bf16) := by
  show StableHlo.after hostOps0_2 (StableHlo.after hostOps0_1 (StableHlo.after hostOps0 (Gen.W0 m ρ c))) (Proc.devRef .tc main_v16) = _
  after_results

set_option maxHeartbeats 100000 in
theorem W3_main_v17 : Gen.W3 m ρ c (Proc.devRef .tc main_v17) = coeffCol (m ((c : Thread nD τ).loc main_arg1)) := by
  have h := W2_main_v14 m ρ c
  show StableHlo.after hostOps0_2 (Gen.W2 m ρ c) (Proc.devRef .tc main_v17) = _
  generalize Gen.W2 m ρ c = V at h ⊢
  after_results
  rw [h]
  unfold coeffCol
  generalize coeff (m ((c : Thread nD τ).loc main_arg1)) = k
  rfl

/-! ## Across the first region

The first region's arrays are the feature matrix, the first weight matrix, the coefficient column and its own
result; every other buffer leaves the region as it entered. -/

theorem W4_main_v5 : Gen.W4 m ρ c (Proc.devRef .tc main_v5) = rowIdx (m ((c : Thread nD τ).loc main_arg1)) :=
  (W4_of_ne m ρ c main_v5 (by decide)).trans (W3_main_v5 m ρ c)

theorem W4_main_v6 : Gen.W4 m ρ c (Proc.devRef .tc main_v6) = colIdx (m ((c : Thread nD τ).loc main_arg1)) :=
  (W4_of_ne m ρ c main_v6 (by decide)).trans (W3_main_v6 m ρ c)

theorem W4_main_v14 : Gen.W4 m ρ c (Proc.devRef .tc main_v14) = coeff (m ((c : Thread nD τ).loc main_arg1)) :=
  (W4_of_ne m ρ c main_v14 (by decide)).trans (W3_main_v14 m ρ c)

theorem W4_main_v16 : Gen.W4 m ρ c (Proc.devRef .tc main_v16) = (truncf (F := Ideal) .bf16 ((m ((c : Thread nD τ).loc main_arg4)) : FVec Ideal S128x40 .f32) bitsLt_bf16_f32 : FVec Ideal S128x40 .bf16) :=
  (W4_of_ne m ρ c main_v16 (by decide)).trans (W3_main_v16 m ρ c)

theorem W4_main_arg3 : Gen.W4 m ρ c (Proc.devRef .tc main_arg3) = m ((c : Thread nD τ).loc main_arg3) :=
  (W4_of_ne m ρ c main_arg3 (by decide)).trans (W3_main_arg3 m ρ c)

theorem W4_main_arg5 : Gen.W4 m ρ c (Proc.devRef .tc main_arg5) = m ((c : Thread nD τ).loc main_arg5) :=
  (W4_of_ne m ρ c main_arg5 (by decide)).trans (W3_main_arg5 m ρ c)

/-! ## At the second region's entry

The second stretch builds the aggregate of the first region's result over the edges: the rows of that result
at the edges' sources, added into zeros at the edges' destinations. It also lays out the coefficient column
again and the first bias as a row. The second weight matrix was narrowed before the first region. -/

set_option maxHeartbeats 200000 in
theorem W5_main_v28 : Gen.W5 m ρ c (Proc.devRef .tc main_v28)
    = Host.scatterAdd scatter_S50000x128_S850000x1_S850000x128_1_0_0_1
        (broadcastInDim S50000x128 ![] bcast_S_S50000x128 (constant (F := Ideal) S_ .f32 0x00000000#32))
        (scatterIdx (m ((c : Thread nD τ).loc main_arg1)))
        (Host.gather gather_S50000x128_S850000x1_S850000x128_1_0_n_n_0_1_1128
          (Gen.W4 m ρ c (Proc.devRef .tc main_v18)) (gatherIdx (m ((c : Thread nD τ).loc main_arg1)))) := by
  have h5 := W4_main_v5 m ρ c
  have h6 := W4_main_v6 m ρ c
  show StableHlo.after hostOps1 (Gen.W4 m ρ c) (Proc.devRef .tc main_v28) = _
  generalize Gen.W4 m ρ c = V at h5 h6 ⊢
  after_results
  rw [h5, h6]
  generalize V (Proc.devRef .tc main_v18) = y
  rfl

set_option maxHeartbeats 100000 in
theorem W5_main_v29 : Gen.W5 m ρ c (Proc.devRef .tc main_v29) = coeffCol (m ((c : Thread nD τ).loc main_arg1)) := by
  have h := W4_main_v14 m ρ c
  show StableHlo.after hostOps1 (Gen.W4 m ρ c) (Proc.devRef .tc main_v29) = _
  generalize Gen.W4 m ρ c = V at h ⊢
  after_results
  rw [h]
  unfold coeffCol
  generalize coeff (m ((c : Thread nD τ).loc main_arg1)) = k
  rfl

set_option maxHeartbeats 100000 in
theorem W5_main_v30 : Gen.W5 m ρ c (Proc.devRef .tc main_v30)
    = shapeCast S1x128 ((m ((c : Thread nD τ).loc main_arg3)) : FVec Ideal S128 .f32) shapeCasts_S128_S1x128 := by
  have h := W4_main_arg3 m ρ c
  show StableHlo.after hostOps1 (Gen.W4 m ρ c) (Proc.devRef .tc main_v30) = _
  generalize Gen.W4 m ρ c = V at h ⊢
  after_results
  rw [h]
  generalize (m ((c : Thread nD τ).loc main_arg3)) = x
  rfl

set_option maxHeartbeats 100000 in
theorem W5_main_v16 : Gen.W5 m ρ c (Proc.devRef .tc main_v16) = (truncf (F := Ideal) .bf16 ((m ((c : Thread nD τ).loc main_arg4)) : FVec Ideal S128x40 .f32) bitsLt_bf16_f32 : FVec Ideal S128x40 .bf16) := by
  have h := W4_main_v16 m ρ c
  show StableHlo.after hostOps1 (Gen.W4 m ρ c) (Proc.devRef .tc main_v16) = _
  generalize Gen.W4 m ρ c = V at h ⊢
  after_results
  exact h

set_option maxHeartbeats 100000 in
theorem W5_main_v5 : Gen.W5 m ρ c (Proc.devRef .tc main_v5) = rowIdx (m ((c : Thread nD τ).loc main_arg1)) := by
  have h := W4_main_v5 m ρ c
  show StableHlo.after hostOps1 (Gen.W4 m ρ c) (Proc.devRef .tc main_v5) = _
  generalize Gen.W4 m ρ c = V at h ⊢
  after_results
  exact h

set_option maxHeartbeats 100000 in
theorem W5_main_v6 : Gen.W5 m ρ c (Proc.devRef .tc main_v6) = colIdx (m ((c : Thread nD τ).loc main_arg1)) := by
  have h := W4_main_v6 m ρ c
  show StableHlo.after hostOps1 (Gen.W4 m ρ c) (Proc.devRef .tc main_v6) = _
  generalize Gen.W4 m ρ c = V at h ⊢
  after_results
  exact h

set_option maxHeartbeats 100000 in
theorem W5_main_v14 : Gen.W5 m ρ c (Proc.devRef .tc main_v14) = coeff (m ((c : Thread nD τ).loc main_arg1)) := by
  have h := W4_main_v14 m ρ c
  show StableHlo.after hostOps1 (Gen.W4 m ρ c) (Proc.devRef .tc main_v14) = _
  generalize Gen.W4 m ρ c = V at h ⊢
  after_results
  exact h

set_option maxHeartbeats 100000 in
theorem W5_main_arg5 : Gen.W5 m ρ c (Proc.devRef .tc main_arg5) = m ((c : Thread nD τ).loc main_arg5) := by
  have h := W4_main_arg5 m ρ c
  show StableHlo.after hostOps1 (Gen.W4 m ρ c) (Proc.devRef .tc main_arg5) = _
  generalize Gen.W4 m ρ c = V at h ⊢
  after_results
  exact h

/-! ## Across the second region

Its arrays are the aggregate, the coefficient column, the bias row, the second weight matrix and its own result. -/

theorem W6_main_v5 : Gen.W6 m ρ c (Proc.devRef .tc main_v5) = rowIdx (m ((c : Thread nD τ).loc main_arg1)) :=
  (W6_of_ne m ρ c main_v5 (by decide)).trans (W5_main_v5 m ρ c)

theorem W6_main_v6 : Gen.W6 m ρ c (Proc.devRef .tc main_v6) = colIdx (m ((c : Thread nD τ).loc main_arg1)) :=
  (W6_of_ne m ρ c main_v6 (by decide)).trans (W5_main_v6 m ρ c)

theorem W6_main_v14 : Gen.W6 m ρ c (Proc.devRef .tc main_v14) = coeff (m ((c : Thread nD τ).loc main_arg1)) :=
  (W6_of_ne m ρ c main_v14 (by decide)).trans (W5_main_v14 m ρ c)

theorem W6_main_arg5 : Gen.W6 m ρ c (Proc.devRef .tc main_arg5) = m ((c : Thread nD τ).loc main_arg5) :=
  (W6_of_ne m ρ c main_arg5 (by decide)).trans (W5_main_arg5 m ρ c)

/-! ## At the third region's entry

The third stretch repeats the second at the narrower width: the aggregate of the second region's result over
the edges, the coefficient column, the second bias as a row. -/

set_option maxHeartbeats 200000 in
theorem W7_main_v41 : Gen.W7 m ρ c (Proc.devRef .tc main_v41)
    = Host.scatterAdd scatter_S50000x40_S850000x1_S850000x40_1_0_0_1
        (broadcastInDim S50000x40 ![] bcast_S_S50000x40 (constant (F := Ideal) S_ .f32 0x00000000#32))
        (scatterIdx (m ((c : Thread nD τ).loc main_arg1)))
        (Host.gather gather_S50000x40_S850000x1_S850000x40_1_0_n_n_0_1_140
          (Gen.W6 m ρ c (Proc.devRef .tc main_v31)) (gatherIdx (m ((c : Thread nD τ).loc main_arg1)))) := by
  have h5 := W6_main_v5 m ρ c
  have h6 := W6_main_v6 m ρ c
  show StableHlo.after hostOps2 (Gen.W6 m ρ c) (Proc.devRef .tc main_v41) = _
  generalize Gen.W6 m ρ c = V at h5 h6 ⊢
  after_results
  rw [h5, h6]
  generalize V (Proc.devRef .tc main_v31) = y
  rfl

set_option maxHeartbeats 100000 in
theorem W7_main_v42 : Gen.W7 m ρ c (Proc.devRef .tc main_v42) = coeffCol (m ((c : Thread nD τ).loc main_arg1)) := by
  have h := W6_main_v14 m ρ c
  show StableHlo.after hostOps2 (Gen.W6 m ρ c) (Proc.devRef .tc main_v42) = _
  generalize Gen.W6 m ρ c = V at h ⊢
  after_results
  rw [h]
  unfold coeffCol
  generalize coeff (m ((c : Thread nD τ).loc main_arg1)) = k
  rfl

set_option maxHeartbeats 100000 in
theorem W7_main_v43 : Gen.W7 m ρ c (Proc.devRef .tc main_v43)
    = shapeCast S1x40 ((m ((c : Thread nD τ).loc main_arg5)) : FVec Ideal S40 .f32) shapeCasts_S40_S1x40 := by
  have h := W6_main_arg5 m ρ c
  show StableHlo.after hostOps2 (Gen.W6 m ρ c) (Proc.devRef .tc main_v43) = _
  generalize Gen.W6 m ρ c = V at h ⊢
  after_results
  rw [h]
  generalize (m ((c : Thread nD τ).loc main_arg5)) = x
  rfl

end Cert.KernelIdeal.HostValue
-- ==== Proof.Spec.lean ====
/-
  The two-layer graph convolution as functions of whole arrays, over the extended reals.

  A layer sends node features through a dense projection, sums over the incoming edges of every node the source
  node's projected row scaled by the symmetric coefficient `dis[src] * dis[dst]`, adds a bias and clips at zero;
  the network ends in a row-wise log-softmax. The functions below are the row-local pieces of that computation:
  a projection whose rows are scaled by the node's own coefficient, the bias-and-clip step after the edge sum has been
  scaled by the destination's coefficient, and the log-softmax of a row of forty entries.
-/
import Idealize.ShloMosaic.PureOps.Ideal
import Idealize.ShloMosaic.Lib.ValueIdx

noncomputable section

open scoped BigOperators

namespace Cert.Gcn

open Idealize.ShloMosaic Idealize.ShloMosaic.ValueIdx

/-- Node features of width 128, of width 40, and a per-node column. -/
abbrev NF128 : Shape := ⟨2, ![50000, 128]⟩
abbrev NF40 : Shape := ⟨2, ![50000, 40]⟩
abbrev NCol : Shape := ⟨2, ![50000, 1]⟩
/-- The two weight matrices and the two biases as one-row matrices. -/
abbrev WM1 : Shape := ⟨2, ![128, 128]⟩
abbrev WM2 : Shape := ⟨2, ![128, 40]⟩
abbrev BR128 : Shape := ⟨2, ![1, 128]⟩
abbrev BR40 : Shape := ⟨2, ![1, 40]⟩

/-- Row `n` of `x · w` (a 128-term sum per entry), every entry of the row times the node's coefficient `d n`. -/
def proj128 (x : NF128.Idx → EReal) (w : WM1.Idx → EReal) (d : NCol.Idx → EReal) : NF128.Idx → EReal :=
  fun i => (∑ k : Fin 128, x (ix2 (i 0) k) * w (ix2 k (i 1))) * d (ix2 (i 0) 0)

/-- The same into width 40. -/
def proj40 (h : NF128.Idx → EReal) (w : WM2.Idx → EReal) (d : NCol.Idx → EReal) : NF40.Idx → EReal :=
  fun i => (∑ k : Fin 128, h (ix2 (i 0) k) * w (ix2 k (i 1))) * d (ix2 (i 0) 0)

/-- The edge sum `a` scaled by the destination node's coefficient, plus the bias, clipped at zero. -/
def hidden128 (a : NF128.Idx → EReal) (d : NCol.Idx → EReal) (b : BR128.Idx → EReal) : NF128.Idx → EReal :=
  fun i => max (a i * d (ix2 (i 0) 0) + b (ix2 0 (i 1))) (Ideal.ofBits .f32 0x00000000#32)

/-- The same at width 40. -/
def hidden40 (a : NF40.Idx → EReal) (d : NCol.Idx → EReal) (b : BR40.Idx → EReal) : NF40.Idx → EReal :=
  fun i => max (a i * d (ix2 (i 0) 0) + b (ix2 0 (i 1))) (Ideal.ofBits .f32 0x00000000#32)

/-- The largest entry of row `n`, as the fold of `max` over the forty columns from the pattern of `-∞`. -/
def rowMax40 (h : NF40.Idx → EReal) (n : Fin 50000) : EReal :=
  (Finset.univ : Finset (Fin 40)).fold max (Ideal.ofBits .f32 0xFF800000#32) (fun c => h (ix2 n c))

/-- Row-wise log-softmax: every entry minus the row's maximum, minus the logarithm of the sum over the row of the
    exponentials of the entries so shifted. -/
def logSoftmax40 (h : NF40.Idx → EReal) : NF40.Idx → EReal :=
  fun i => (h i - rowMax40 h (i 0))
    - Ideal.log (∑ c : Fin 40, Ideal.exp (h (ix2 (i 0) c) - rowMax40 h (i 0)))

end Cert.Gcn

end
-- ==== Proof.ColumnOps.lean ====
/-
  Columns and rows of a two-axis block.

  A per-row quantity (one number for each row of a block) lives in a column of shape `[a, 1]`. Spreading it over the
  `b` entries of each row gives, at `(p, c)`, the column's entry of row `p`; a vector of length `a` viewed as such a
  column has, at `(p, 0)`, the vector's entry `p`. A block read at offsets `(0, 0)` is the block itself: the last
  fact here says those offsets are the zero function.
-/
import Idealize.ShloMosaic.Lib.Pipeline.Value
import Idealize.ShloMosaic.Lib.ValueLayout

noncomputable section

namespace Cert.KernelIdeal.RegionValue

open Idealize.ShloMosaic Idealize.ShloMosaic.ValueIdx

variable {α : Type}

/-- The offsets `(0, 0)` are the zero function. -/
theorem zeroOffsets : (![0, 0] : Fin 2 → Nat) = fun _ => 0 := funext fun a => by fin_cases a <;> rfl

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`: both sit at row-major
    position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.KernelIdeal.RegionValue

end
-- ==== Proof.RegionValue0.lean ====
/-
  The first region as one function of whole arrays, over the extended reals.

  The region walks ten row blocks of 5000 rows. At block `t` it multiplies rows `5000 t … 5000 t + 4999` of the
  feature matrix by the whole 128 × 128 weight matrix (each entry a sum of 128 products, started from zero) and scales
  every entry of a row by that row's coefficient, which it reads from the same rows of the coefficient column. Entry
  `(n, q)` of the result therefore depends on row `n` of the features, column `q` of the weights and entry `n` of the
  column only, whichever block `n` falls in: the ten written blocks are the ten row blocks of one function of the three
  arrays, the blocks tile the 50000 rows (row `n` lies in block `n / 5000`), and so the result array is that function.
-/
import proofs.«172077_j42563125903764_2_alg».proof.Proof.Gen.KernelIdeal.Frame
import proofs.«172077_j42563125903764_2_alg».proof.Proof.Spec
import proofs.«172077_j42563125903764_2_alg».proof.Proof.ColumnOps
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem proj128mm_lhs_row (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem proj128mm_rhs_col (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

set_option maxHeartbeats 400000 in
/-- The block product read at `(p, q)`: row `p` of the left block against column `q` of the weights, a sum over the
    128 contracted positions (the accumulator is the zero splat). -/
theorem proj128mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact proj128mm_lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact proj128mm_rhs_col _ _)
  rw [el, er]

set_option maxHeartbeats 400000 in
/-- The first region's stored value at `(p, q)`: the projected row entry times the row's coefficient. -/
theorem pay0_apply (x0 : Vec Ideal S5000x128 .f32) (x1 : Vec Ideal S128x128 .bf16) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, shapeCast_self, shapeCast_self]
  refine congrArg₂ (· * ·) ((proj128mm_apply _ _ p q).trans ?_) (broadcastTo_a1_ab_apply _ _ p q)
  rfl

section Arrays
variable (V : (c : Dev nD) → (b : Ref sig .tc) → Buf (Elt Ideal) ((c : Thread nD τ).loc b))

/-- The block index maps over the ten grid points: the row-blocked windows (features, coefficient column, result) sit at
    row block `t`, the weights at their one block. -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

set_option maxHeartbeats 400000 in
/-- A result block is the matching block of the whole-array projection, as soon as each input block is its array read
    at the rows (and, for the weights, the whole matrix) that the result block's rows name. -/
theorem block0_value (A : S50000x128.Idx → EReal) (W : S128x128.Idx → EReal) (D : S50000x1.Idx → EReal)
    (e0 : S5000x128.Idx → S50000x128.Idx) (e1 : S128x128.Idx → S128x128.Idx) (e2 : S5000x1.Idx → S50000x1.Idx)
    (e3 : S5000x128.Idx → S50000x128.Idx)
    (h0 : ∀ (p : Fin 5000) (k q : Fin 128), e0 (ix2 p k) = ix2 (e3 (ix2 p q) 0) k)
    (h1 : ∀ (p : Fin 5000) (k q : Fin 128), e1 (ix2 k q) = ix2 k (e3 (ix2 p q) 1))
    (h2 : ∀ (p : Fin 5000) (q : Fin 128), e2 (ix2 p (0 : Fin 1)) = ix2 (e3 (ix2 p q) 0) (0 : Fin 1))
    (j : S5000x128.Idx) :
    k0_pay1 (F := Ideal) (fun y => A (e0 y)) (fun y => W (e1 y)) (fun y => D (e2 y)) j = Cert.Gcn.proj128 A W D (e3 j) := by
  obtain ⟨p, q, rfl⟩ : ∃ (p : Fin 5000) (q : Fin 128), j = ix2 p q := ⟨j 0, j 1, eq_ix2 j⟩
  rw [pay0_apply]
  unfold Cert.Gcn.proj128
  refine congrArg₂ (· * ·) (Finset.sum_congr rfl fun k _ => ?_) ?_
  · exact congrArg₂ (· * ·) (congrArg A (h0 p k q)) (congrArg W (h1 p k q))
  · exact congrArg D (h2 p q)

set_option maxHeartbeats 400000 in
/-- What grid point `t` writes back is block `t` of the projection of the arrays as the region finds them. -/
theorem flushed0_eq (c : Dev nD) (t : Fin cfg0.N) :
    (dat0 (F := Ideal) V c).flushed 3 t
      = ((cfg0.win 3).blk t).view.read (Elt Ideal) (Cert.Gcn.proj128 (V c main_arg0) (V c main_v15) (V c main_v17)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets, View.ld_unit_zero (S := S5000x1) zeroOffsets]
  obtain ⟨a00, a01, a10, a11, a20, a21, a30, a31⟩ := blockIndices0 t
  funext j
  show k0_pay1 (F := Ideal) (fun y => V c main_arg0 (((cfg0.win 0).blk t).view.emb y)) (fun y => V c main_v15 (((cfg0.win 1).blk t).view.emb y))
      (fun y => V c main_v17 (((cfg0.win 2).blk t).view.emb y)) j
    = Cert.Gcn.proj128 (V c main_arg0) (V c main_v15) (V c main_v17) (((cfg0.win 3).blk t).view.emb j)
  refine block0_value (V c main_arg0) (V c main_v15) (V c main_v17) _ _ _ _ (fun p k q => ?_) (fun p k q => ?_) (fun p q => ?_) j
  · funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- An index of the result array is in point `t`'s block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every row of the result lies in the block of the grid point `row / 5000`. -/
theorem covered0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, a30, a31⟩ := blockIndices0 t
  have ht : t.val = (i 0).val / 5000 := rfl
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the first region the result array is the projection of the arrays the region found, index by index. -/
theorem final0 (c : Dev nD) : (dat0 (F := Ideal) V c).arrAt 3 cfg0.N
    = Cert.Gcn.proj128 (V c (Pipeline.arrRef spec0 0)) (V c (Pipeline.arrRef spec0 1)) (V c (Pipeline.arrRef spec0 2)) :=
  (dat0 (F := Ideal) V c).arrAt_eq_of_cover 3 (Cert.Gcn.proj128 (V c main_arg0) (V c main_v15) (V c main_v17))
    (fun t _ => flushed0_eq V c t) covered0

end Arrays

end Cert.KernelIdeal.RegionValue

end
-- ==== Proof.RegionValue1.lean ====
/-
  The second region as one function of whole arrays, over the extended reals.

  The region walks ten row blocks of 5000 rows. At block `t` it takes rows `5000 t … 5000 t + 4999` of the edge-sum
  matrix, scales each row by its coefficient, adds the bias row and clips at zero (the hidden layer's rows), multiplies
  the result by the whole 128 × 40 weight matrix (each entry a sum of 128 products, started from zero), and scales every
  entry of a row by the row's coefficient once more. Entry `(n, q)` depends on row `n` of the edge sums, entry `n` of the
  coefficient column, the bias row and column `q` of the weights only: the ten written blocks are the row blocks of one
  function of the four arrays, they tile the 50000 rows, and so the result array is that function.
-/
import proofs.«172077_j42563125903764_2_alg».proof.Proof.Gen.KernelIdeal.Frame
import proofs.«172077_j42563125903764_2_alg».proof.Proof.Spec
import proofs.«172077_j42563125903764_2_alg».proof.Proof.ColumnOps
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem proj40mm_lhs_row (i : S5000x40.Idx) (k : dot_S5000x128_S128x40_S5000x40_1_0_0_1_n_n.contr.Idx) : (dot_S5000x128_S128x40_S5000x40_1_0_0_1_n_n.lhsIdx i k 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem proj40mm_rhs_col (i : S5000x40.Idx) (k : dot_S5000x128_S128x40_S5000x40_1_0_0_1_n_n.contr.Idx) : (dot_S5000x128_S128x40_S5000x40_1_0_0_1_n_n.rhsIdx i k 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

set_option maxHeartbeats 400000 in
/-- The block product read at `(p, q)`: row `p` of the left block against column `q` of the weights, a sum over the
    128 contracted positions (the accumulator is the zero splat). -/
theorem proj40mm_apply (l : FVec Ideal S5000x128 .bf16) (r : FVec Ideal S128x40 .bf16) (p : Fin 5000) (q : Fin 40) :
    matmul dot_S5000x128_S128x40_S5000x40_1_0_0_1_n_n none l r (constant (F := Ideal) S5000x40 .f32 0x00000000#32) (ix2 p q)
      = ∑ k : Fin 128, l (ix2 p k) * r (ix2 k q) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact proj40mm_lhs_row _ _
    | ⟨1, _⟩ => exact (dot_S5000x128_S128x40_S5000x40_1_0_0_1_n_n.lhsIdx_val_of_single rfl (ix2 p q) _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (dot_S5000x128_S128x40_S5000x40_1_0_0_1_n_n.rhsIdx_val_of_single rfl (ix2 p q) _).trans hk
    | ⟨1, _⟩ => exact proj40mm_rhs_col _ _)
  rw [el, er]

set_option maxHeartbeats 400000 in
/-- The second region's stored value at `(p, q)`: the clipped, biased, rescaled row `p` against column `q` of the
    weights, times the row's coefficient. -/
theorem pay1_apply (x0 : Vec Ideal S5000x128 .f32) (x1 : Vec Ideal S5000x1 .f32) (x2 : Vec Ideal S1x128 .f32)
    (x3 : Vec Ideal S128x40 .bf16) (x4 : Vec Ideal S5000x1 .f32) (p : Fin 5000) (q : Fin 40) :
    k1_pay1 (F := Ideal) x0 x1 x2 x3 x4 (ix2 p q)
      = (∑ k : Fin 128, max (x0 (ix2 p k) * x1 (ix2 p (0 : Fin 1)) + x2 (ix2 (0 : Fin 1) k)) (Ideal.ofBits .f32 0x00000000#32) * x3 (ix2 k q))
        * x4 (ix2 p (0 : Fin 1)) := by
  unfold k1_pay1
  simp only [shapeCast_self]
  rw [mulf_apply]
  refine congrArg₂ (· * ·) ((proj40mm_apply _ _ p q).trans ?_) (broadcastTo_a1_ab_apply _ _ p q)
  refine Finset.sum_congr rfl fun k _ => ?_
  refine congrArg (· * x3 (ix2 k q)) ?_
  show max (x0 (ix2 p k) * broadcastTo S5000x128 x1 broadcasts_S5000x1_S5000x128 (ix2 p k)
      + broadcastTo S5000x128 x2 broadcasts_S1x128_S5000x128 (ix2 p k)) (Ideal.ofBits .f32 0x00000000#32) = _
  rw [broadcastTo_a1_ab_apply, broadcastTo_1b_ab_apply]

section Arrays
variable (V : (c : Dev nD) → (b : Ref sig .tc) → Buf (Elt Ideal) ((c : Thread nD τ).loc b))

/-- The block index maps over the ten grid points: the row-blocked windows (edge sums, coefficient column, result) sit at
    row block `t`, the bias row and the weights at their one block. -/
theorem blockIndices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 400000 in
/-- A result block is the matching block of the whole-array function (hidden layer, then projection), as soon as each
    input block is its array read at the rows the result block's rows name, the bias and weights read whole. -/
theorem block1_value (A : S50000x128.Idx → EReal) (D : S50000x1.Idx → EReal) (B : S1x128.Idx → EReal) (W : S128x40.Idx → EReal)
    (e0 : S5000x128.Idx → S50000x128.Idx) (e1 : S5000x1.Idx → S50000x1.Idx) (e2 : S1x128.Idx → S1x128.Idx)
    (e3 : S128x40.Idx → S128x40.Idx) (e4 : S5000x40.Idx → S50000x40.Idx)
    (h0 : ∀ (p : Fin 5000) (k : Fin 128) (q : Fin 40), e0 (ix2 p k) = ix2 (e4 (ix2 p q) 0) k)
    (h1 : ∀ (p : Fin 5000) (q : Fin 40), e1 (ix2 p (0 : Fin 1)) = ix2 (e4 (ix2 p q) 0) (0 : Fin 1))
    (h2 : ∀ (k : Fin 128), e2 (ix2 (0 : Fin 1) k) = ix2 (0 : Fin 1) k)
    (h3 : ∀ (p : Fin 5000) (k : Fin 128) (q : Fin 40), e3 (ix2 k q) = ix2 k (e4 (ix2 p q) 1))
    (j : S5000x40.Idx) :
    k1_pay1 (F := Ideal) (fun y => A (e0 y)) (fun y => D (e1 y)) (fun y => B (e2 y)) (fun y => W (e3 y)) (fun y => D (e1 y)) j
      = Cert.Gcn.proj40 (Cert.Gcn.hidden128 A D B) W D (e4 j) := by
  obtain ⟨p, q, rfl⟩ : ∃ (p : Fin 5000) (q : Fin 40), j = ix2 p q := ⟨j 0, j 1, eq_ix2 j⟩
  rw [pay1_apply]
  unfold Cert.Gcn.proj40 Cert.Gcn.hidden128
  refine congrArg₂ (· * ·) (Finset.sum_congr rfl fun k _ => ?_) (congrArg D (h1 p q))
  exact congrArg₂ (· * ·)
    (congrArg (max · (Ideal.ofBits .f32 0x00000000#32))
      (congrArg₂ (· + ·) (congrArg₂ (· * ·) (congrArg A (h0 p k q)) (congrArg D (h1 p q))) (congrArg B (h2 k))))
    (congrArg W (h3 p k q))

set_option maxHeartbeats 400000 in
/-- What grid point `t` writes back is block `t` of that function of the arrays as the region finds them. -/
theorem flushed1_eq (c : Dev nD) (t : Fin cfg1.N) :
    (dat1 (F := Ideal) V c).flushed 4 t
      = ((cfg1.win 4).blk t).view.read (Elt Ideal)
          (Cert.Gcn.proj40 (Cert.Gcn.hidden128 (V c main_v28) (V c main_v29) (V c main_v30)) (V c main_v16) (V c main_v29)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets, View.ld_unit_zero (S := S128x40) zeroOffsets]
  obtain ⟨a00, a01, a10, a11, a20, a21, a30, a31, a40, a41⟩ := blockIndices1 t
  funext j
  show k1_pay1 (F := Ideal) (fun y => V c main_v28 (((cfg1.win 0).blk t).view.emb y)) (fun y => V c main_v29 (((cfg1.win 1).blk t).view.emb y))
      (fun y => V c main_v30 (((cfg1.win 2).blk t).view.emb y)) (fun y => V c main_v16 (((cfg1.win 3).blk t).view.emb y))
      (fun y => V c main_v29 (((cfg1.win 1).blk t).view.emb y)) j
    = Cert.Gcn.proj40 (Cert.Gcn.hidden128 (V c main_v28) (V c main_v29) (V c main_v30)) (V c main_v16) (V c main_v29) (((cfg1.win 4).blk t).view.emb j)
  refine block1_value (V c main_v28) (V c main_v29) (V c main_v30) (V c main_v16) _ _ _ _ _
    (fun p k q => ?_) (fun p q => ?_) (fun k => ?_) (fun p k q => ?_) j
  · funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  · funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  · funext a; apply Fin.ext
    match a with
    | ⟨0, _⟩ => show win1_2.index t (0 : Fin 2) * 1 + 1 * 0 = 0; omega
    | ⟨1, _⟩ => show win1_2.index t (1 : Fin 2) * 128 + 1 * k.val = k.val; omega
  · funext a; apply Fin.ext
    match a with
    | ⟨0, _⟩ => show win1_3.index t (0 : Fin 2) * 128 + 1 * k.val = k.val; omega
    | ⟨1, _⟩ => show win1_3.index t (1 : Fin 2) * 40 + 1 * q.val = win1_4.index t (1 : Fin 2) * 40 + 1 * q.val; omega

/-- An index of the result array is in point `t`'s block iff each coordinate is in the block's range on its axis. -/
theorem mem_block1 (t : Fin cfg1.N) (i : S50000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v31).slice (win1_4.rect t)).set ↔ _
  rw [View.set_slice_whole, Rect.mem_set_unit]
  exact Iff.rfl

/-- Every row of the result lies in the block of the grid point `row / 5000`. -/
theorem covered1 (i : S50000x40.Idx) : ∃ t : Fin cfg1.N, (cfg1.win 4).flush t = true ∧ i ∈ ((cfg1.win 4).blk t).view.set := by
  have hi0 : (i 0).val < 50000 := (i 0).isLt
  have hi1 : (i 1).val < 40 := (i 1).isLt
  have hN : cfg1.N = 10 := N_1
  let t : Fin cfg1.N := ⟨(i 0).val / 5000, by rw [hN]; omega⟩
  obtain ⟨-, -, -, -, -, -, -, -, a40, a41⟩ := blockIndices1 t
  have ht : t.val = (i 0).val / 5000 := rfl
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 40 ≤ (i 1).val ∧ (i 1).val < win1_4.index t (1 : Fin 2) * 40 + 40; omega

/-- After the second region the result array is the hidden layer of the arrays the region found, projected to width
    forty and rescaled, index by index. -/
theorem final1 (c : Dev nD) : (dat1 (F := Ideal) V c).arrAt 4 cfg1.N
    = Cert.Gcn.proj40 (Cert.Gcn.hidden128 (V c (Pipeline.arrRef spec1 0)) (V c (Pipeline.arrRef spec1 1)) (V c (Pipeline.arrRef spec1 2)))
        (V c (Pipeline.arrRef spec1 3)) (V c (Pipeline.arrRef spec1 1)) :=
  (dat1 (F := Ideal) V c).arrAt_eq_of_cover 4
    (Cert.Gcn.proj40 (Cert.Gcn.hidden128 (V c main_v28) (V c main_v29) (V c main_v30)) (V c main_v16) (V c main_v29))
    (fun t _ => flushed1_eq V c t) covered1

end Arrays

end Cert.KernelIdeal.RegionValue

end
-- ==== Proof.RegionValue2.lean ====
/-
  The third region as one function of whole arrays, over the extended reals.

  The region walks ten row blocks of 5000 rows. At block `t` it takes rows `5000 t … 5000 t + 4999` of the edge-sum
  matrix of width forty, scales each row by its coefficient, adds the bias row and clips at zero; then, row by row, it
  subtracts the row's largest entry (a maximum over the row's forty entries, started from `-∞`), and subtracts the
  logarithm of the sum over the row of the exponentials of the entries so shifted (a sum started from zero). Both
  reductions stay inside one row, so entry `(n, q)` depends on row `n` of the edge sums, entry `n` of the coefficient
  column and the bias row only: the ten written blocks are the row blocks of the row-wise log-softmax of the hidden
  layer, they tile the 50000 rows, and so the result array is that function.
-/
import proofs.«172077_j42563125903764_2_alg».proof.Proof.Gen.KernelIdeal.Frame
import proofs.«172077_j42563125903764_2_alg».proof.Proof.Spec
import proofs.«172077_j42563125903764_2_alg».proof.Proof.ColumnOps
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The pieces of the stored value -/

/-- The clipped block: edge sums scaled by the row's coefficient, plus the bias row, clipped at zero. -/
def clippedBlock (x0 : Vec Ideal S5000x40 .f32) (x1 : Vec Ideal S5000x1 .f32) (x2 : Vec Ideal S1x40 .f32) : FVec Ideal S5000x40 .f32 :=
  maximumf (addf (mulf x0 (broadcastTo S5000x40 x1 broadcasts_S5000x1_S5000x40)) (broadcastTo S5000x40 x2 broadcasts_S1x40_S5000x40))
    (broadcast S5000x40 (Scalar.ofBits (F := Ideal) .f32 0x00000000#32))

/-- Each row's largest entry, taken along the forty lanes from the pattern of `-∞`. -/
def rowTop (H : FVec Ideal S5000x40 .f32) : FVec Ideal S5000 .f32 :=
  multiReduction .maximumf [1] S5000 H 0xFF800000#32 reduces_S5000x40_S5000 (.inl rfl) rfl

/-- Every entry minus its row's largest. -/
def shifted (H : FVec Ideal S5000x40 .f32) : FVec Ideal S5000x40 .f32 :=
  subf H (broadcastTo S5000x40 (shapeCast S5000x1 (rowTop H) shapeCasts_S5000_S5000x1) broadcasts_S5000x1_S5000x40)

/-- Each row's sum of the exponentials of its shifted entries, taken along the forty lanes from zero. -/
def rowMass (H : FVec Ideal S5000x40 .f32) : FVec Ideal S5000 .f32 :=
  multiReduction .add [1] S5000 (exp (shifted H)) 0x00000000#32 reduces_S5000x40_S5000 (.inl rfl) rfl

/-- Every shifted entry minus the logarithm of its row's mass. -/
def logNormalised (H : FVec Ideal S5000x40 .f32) : FVec Ideal S5000x40 .f32 :=
  subf (shifted H) (broadcastTo S5000x40 (log (shapeCast S5000x1 (rowMass H) shapeCasts_S5000_S5000x1)) broadcasts_S5000x1_S5000x40)

set_option maxHeartbeats 400000 in
/-- The third region's stored value is the log-normalisation of the clipped block. -/
theorem pay2_eq (x0 : Vec Ideal S5000x40 .f32) (x1 : Vec Ideal S5000x1 .f32) (x2 : Vec Ideal S1x40 .f32) :
    k2_pay1 (F := Ideal) x0 x1 x2 = logNormalised (clippedBlock x0 x1 x2) := by
  unfold k2_pay1 logNormalised rowMass shifted rowTop clippedBlock
  simp only [shapeCast_self]

/-! ## Each piece at an index -/

/-- Inserting lane `c` into the row index `p` gives the entry `(p, c)`. -/
theorem lane_insert (p : Fin 5000) (c : Fin 40) : reduces_S5000x40_S5000.lift (ix1 p) c = ix2 p c :=
  funext fun a => Fin.ext (by match a with | ⟨0, _⟩ => rfl | ⟨1, _⟩ => rfl)

set_option maxHeartbeats 400000 in
theorem clippedBlock_apply (x0 : Vec Ideal S5000x40 .f32) (x1 : Vec Ideal S5000x1 .f32) (x2 : Vec Ideal S1x40 .f32) (p : Fin 5000) (c : Fin 40) :
    clippedBlock x0 x1 x2 (ix2 p c)
      = max (x0 (ix2 p c) * x1 (ix2 p (0 : Fin 1)) + x2 (ix2 (0 : Fin 1) c)) (Ideal.ofBits .f32 0x00000000#32) := by
  show max (x0 (ix2 p c) * broadcastTo S5000x40 x1 broadcasts_S5000x1_S5000x40 (ix2 p c)
      + broadcastTo S5000x40 x2 broadcasts_S1x40_S5000x40 (ix2 p c)) (Ideal.ofBits .f32 0x00000000#32) = _
  rw [broadcastTo_a1_ab_apply, broadcastTo_1b_ab_apply]

set_option maxHeartbeats 400000 in
theorem rowTop_apply (H : FVec Ideal S5000x40 .f32) (p : Fin 5000) :
    rowTop H (ix1 p) = (Finset.univ : Finset (Fin 40)).fold max (Ideal.ofBits .f32 0xFF800000#32) (fun c => H (ix2 p c)) := by
  unfold rowTop
  refine (Ideal.multiReduction_maximumf_single H _ reduces_S5000x40_S5000 (.inl rfl) rfl (ix1 p)).trans ?_
  exact congrArg ((Finset.univ : Finset (Fin 40)).fold max (Ideal.ofBits .f32 0xFF800000#32)) (funext fun c => congrArg H (lane_insert p c))

set_option maxHeartbeats 400000 in
theorem shifted_apply (H : FVec Ideal S5000x40 .f32) (p : Fin 5000) (c : Fin 40) :
    shifted H (ix2 p c) = H (ix2 p c) - rowTop H (ix1 p) := by
  show H (ix2 p c) - broadcastTo S5000x40 (shapeCast S5000x1 (rowTop H) shapeCasts_S5000_S5000x1) broadcasts_S5000x1_S5000x40 (ix2 p c) = _
  exact congrArg (H (ix2 p c) - ·) ((broadcastTo_a1_ab_apply _ _ p c).trans (shapeCast_a_a1_apply _ _ p 0))

set_option maxHeartbeats 400000 in
theorem rowMass_apply (H : FVec Ideal S5000x40 .f32) (p : Fin 5000) :
    rowMass H (ix1 p) = ∑ c : Fin 40, Ideal.exp (shifted H (ix2 p c)) := by
  unfold rowMass
  refine (Ideal.multiReduction_add_single (exp (shifted H)) _ reduces_S5000x40_S5000 (.inl rfl) rfl (ix1 p)).trans ?_
  refine Finset.sum_congr rfl fun c _ => ?_
  exact congrArg (fun i => Ideal.exp (shifted H i)) (lane_insert p c)

set_option maxHeartbeats 400000 in
theorem logNormalised_apply (H : FVec Ideal S5000x40 .f32) (p : Fin 5000) (q : Fin 40) :
    logNormalised H (ix2 p q) = shifted H (ix2 p q) - Ideal.log (rowMass H (ix1 p)) := by
  show shifted H (ix2 p q) - broadcastTo S5000x40 (log (shapeCast S5000x1 (rowMass H) shapeCasts_S5000_S5000x1)) broadcasts_S5000x1_S5000x40 (ix2 p q) = _
  refine congrArg (shifted H (ix2 p q) - ·) ((broadcastTo_a1_ab_apply _ _ p q).trans ?_)
  show Ideal.log (shapeCast S5000x1 (rowMass H) shapeCasts_S5000_S5000x1 (ix2 p (0 : Fin 1))) = _
  rw [shapeCast_a_a1_apply]

/-! ## From blocks to the array -/

section Arrays
variable (V : (c : Dev nD) → (b : Ref sig .tc) → Buf (Elt Ideal) ((c : Thread nD τ).loc b))

/-- The block index maps over the ten grid points: the row-blocked windows (edge sums, coefficient column, result) sit at
    row block `t`, the bias row at its one block. -/
theorem blockIndices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 400000 in
/-- A result block is the matching block of the whole-array log-softmax of the hidden layer, as soon as each input
    block is its array read at the rows `r p` the result block's rows name, the bias read whole. A row's maximum and mass
    range over the forty entries of that one row, so nothing outside the block's own rows enters. -/
theorem block2_value (A : S50000x40.Idx → EReal) (D : S50000x1.Idx → EReal) (B : S1x40.Idx → EReal)
    (e0 : S5000x40.Idx → S50000x40.Idx) (e1 : S5000x1.Idx → S50000x1.Idx) (e2 : S1x40.Idx → S1x40.Idx)
    (e3 : S5000x40.Idx → S50000x40.Idx) (r : Fin 5000 → Fin 50000)
    (h0 : ∀ (p : Fin 5000) (c : Fin 40), e0 (ix2 p c) = ix2 (r p) c)
    (h1 : ∀ (p : Fin 5000), e1 (ix2 p (0 : Fin 1)) = ix2 (r p) (0 : Fin 1))
    (h2 : ∀ (c : Fin 40), e2 (ix2 (0 : Fin 1) c) = ix2 (0 : Fin 1) c)
    (h3 : ∀ (p : Fin 5000) (q : Fin 40), e3 (ix2 p q) = ix2 (r p) q)
    (j : S5000x40.Idx) :
    k2_pay1 (F := Ideal) (fun y => A (e0 y)) (fun y => D (e1 y)) (fun y => B (e2 y)) j
      = Cert.Gcn.logSoftmax40 (Cert.Gcn.hidden40 A D B) (e3 j) := by
  obtain ⟨p, q, rfl⟩ : ∃ (p : Fin 5000) (q : Fin 40), j = ix2 p q := ⟨j 0, j 1, eq_ix2 j⟩
  rw [pay2_eq, h3 p q]
  have hH : ∀ c : Fin 40, clippedBlock (fun y => A (e0 y)) (fun y => D (e1 y)) (fun y => B (e2 y)) (ix2 p c)
      = Cert.Gcn.hidden40 A D B (ix2 (r p) c) := by
    intro c
    refine (clippedBlock_apply _ _ _ p c).trans ?_
    unfold Cert.Gcn.hidden40
    exact congrArg (max · (Ideal.ofBits .f32 0x00000000#32))
      (congrArg₂ (· + ·) (congrArg₂ (· * ·) (congrArg A (h0 p c)) (congrArg D (h1 p))) (congrArg B (h2 c)))
  generalize clippedBlock (fun y => A (e0 y)) (fun y => D (e1 y)) (fun y => B (e2 y)) = H at hH ⊢
  rw [logNormalised_apply, rowMass_apply, shifted_apply]
  simp only [shifted_apply, rowTop_apply, hH]
  rfl

set_option maxHeartbeats 400000 in
/-- What grid point `t` writes back is block `t` of that function of the arrays as the region finds them. -/
theorem flushed2_eq (c : Dev nD) (t : Fin cfg2.N) :
    (dat2 (F := Ideal) V c).flushed 3 t
      = ((cfg2.win 3).blk t).view.read (Elt Ideal)
          (Cert.Gcn.logSoftmax40 (Cert.Gcn.hidden40 (V c main_v41) (V c main_v42) (V c main_v43))) := by
  show (cfg2.win 3).cut (grid2.coords t) ((dat2 V c).after 3 t) = _
  rw [after2_3]
  unfold out2_3
  rw [View.canon_unit_zero zeroOffsets]
  simp only [View.ld_unit_zero (S := S5000x40) zeroOffsets, View.ld_unit_zero (S := S5000x1) zeroOffsets,
    View.ld_unit_zero (S := S1x40) zeroOffsets]
  obtain ⟨a00, a01, a10, a11, a20, a21, a30, a31⟩ := blockIndices2 t
  funext j
  show k2_pay1 (F := Ideal) (fun y => V c main_v41 (((cfg2.win 0).blk t).view.emb y)) (fun y => V c main_v42 (((cfg2.win 1).blk t).view.emb y))
      (fun y => V c main_v43 (((cfg2.win 2).blk t).view.emb y)) j
    = Cert.Gcn.logSoftmax40 (Cert.Gcn.hidden40 (V c main_v41) (V c main_v42) (V c main_v43)) (((cfg2.win 3).blk t).view.emb j)
  refine block2_value (V c main_v41) (V c main_v42) (V c main_v43) _ _ _ _
    (fun p => (((cfg2.win 3).blk t).view.emb (ix2 p (0 : Fin 40)) : S50000x40.Idx) 0)
    (fun p k => ?_) (fun p => ?_) (fun k => ?_) (fun p q => ?_) j
  · funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 40 + 1 * k.val = k.val; omega
  · funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  · funext a; apply Fin.ext
    match a with
    | ⟨0, _⟩ => show win2_2.index t (0 : Fin 2) * 1 + 1 * 0 = 0; omega
    | ⟨1, _⟩ => show win2_2.index t (1 : Fin 2) * 40 + 1 * k.val = k.val; omega
  · funext a; apply Fin.ext
    match a with
    | ⟨0, _⟩ => show win2_3.index t (0 : Fin 2) * 5000 + 1 * p.val = win2_3.index t (0 : Fin 2) * 5000 + 1 * p.val; rfl
    | ⟨1, _⟩ => show win2_3.index t (1 : Fin 2) * 40 + 1 * q.val = q.val; omega

/-- An index of the result array is in point `t`'s block iff each coordinate is in the block's range on its axis. -/
theorem mem_block2 (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v44).slice (win2_3.rect t)).set ↔ _
  rw [View.set_slice_whole, Rect.mem_set_unit]
  exact Iff.rfl

/-- Every row of the result lies in the block of the grid point `row / 5000`. -/
theorem covered2 (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 10 := N_2
  let t : Fin cfg2.N := ⟨(i 0).val / 5000, by rw [hN]; omega⟩
  obtain ⟨-, -, -, -, -, -, a30, a31⟩ := blockIndices2 t
  have ht : t.val = (i 0).val / 5000 := rfl
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 40 ≤ (i 1).val ∧ (i 1).val < win2_3.index t (1 : Fin 2) * 40 + 40; omega

/-- After the third region the result array is the row-wise log-softmax of the hidden layer of the arrays the region
    found, index by index. -/
theorem final2 (c : Dev nD) : (dat2 (F := Ideal) V c).arrAt 3 cfg2.N
    = Cert.Gcn.logSoftmax40 (Cert.Gcn.hidden40 (V c (Pipeline.arrRef spec2 0)) (V c (Pipeline.arrRef spec2 1)) (V c (Pipeline.arrRef spec2 2))) :=
  (dat2 (F := Ideal) V c).arrAt_eq_of_cover 3
    (Cert.Gcn.logSoftmax40 (Cert.Gcn.hidden40 (V c main_v41) (V c main_v42) (V c main_v43)))
    (fun t _ => flushed2_eq V c t) covered2

end Arrays

end Cert.KernelIdeal.RegionValue

end
-- ==== Proof.KValue.lean ====
import proofs.«172077_j42563125903764_2_alg».proof.Proof.KHost
import proofs.«172077_j42563125903764_2_alg».proof.Proof.RegionValue0
import proofs.«172077_j42563125903764_2_alg».proof.Proof.RegionValue1
import proofs.«172077_j42563125903764_2_alg».proof.Proof.RegionValue2

/-!
# The kernel program's result as one function of its six arguments

The program alternates row-local work on the device with edge sums on the host:

* the first region projects the features through the first weight matrix and scales row `v` by `coeff v`;
* the host sums these rows over the incoming edges of every node (`edgeSum128`);
* the second region scales the sum's row `v` by `coeff v`, adds the first bias and clips at zero, which is the
  first layer's output, then projects it through the second weight matrix and scales row `v` by `coeff v`;
* the host sums those rows over the incoming edges (`edgeSum40`);
* the third region scales by `coeff v`, adds the second bias, clips at zero and takes the row-wise log-softmax.

Each edge's term thus carries the coefficient of its source (applied before the sum) and of its destination
(applied after it), which is the symmetric normalisation. Joining each region's value, as a function of the
contents of its input arrays at its entry, to what the host left in those arrays gives the result buffer as
`kernelValue` of the launch contents of the arguments.
-/

noncomputable section

namespace Cert.KernelIdeal.HostValue

open Cert.KernelIdeal Cert.KernelIdeal.Gen Idealize.ShloMosaic Idealize.ShloMosaic.TcCoe Idealize.SL.Sem
open Idealize.ShloMosaic.StableHlo

/-! ## The stages -/

/-- First region: the features projected through the first weight matrix, row `v` scaled by `coeff v`. -/
def scaledProj128 (x0 : FVec Ideal S50000x128 .f32) (x1 : IVec S2x800000 32) (x2 : FVec Ideal S128x128 .f32) : S50000x128.Idx → EReal :=
  Cert.Gcn.proj128 x0 (truncf (F := Ideal) .bf16 x2 bitsLt_bf16_f32) (coeffCol x1)

/-- Row `v`: the sum over the edges into `v` of the first region's row at the edge's source. -/
def edgeSum128 (x0 : FVec Ideal S50000x128 .f32) (x1 : IVec S2x800000 32) (x2 : FVec Ideal S128x128 .f32) : S50000x128.Idx → EReal :=
  Host.scatterAdd scatter_S50000x128_S850000x1_S850000x128_1_0_0_1
    (broadcastInDim S50000x128 ![] bcast_S_S50000x128 (constant (F := Ideal) S_ .f32 0x00000000#32))
    (scatterIdx x1)
    (Host.gather gather_S50000x128_S850000x1_S850000x128_1_0_n_n_0_1_1128 (scaledProj128 x0 x1 x2) (gatherIdx x1))

/-- Second region: the first layer's output (the edge sum scaled by the destination's coefficient, plus the
    bias, clipped at zero) projected through the second weight matrix, row `v` scaled by `coeff v`. -/
def scaledProj40 (x0 : FVec Ideal S50000x128 .f32) (x1 : IVec S2x800000 32) (x2 : FVec Ideal S128x128 .f32) (x3 : FVec Ideal S128 .f32) (x4 : FVec Ideal S128x40 .f32) : S50000x40.Idx → EReal :=
  Cert.Gcn.proj40
    (Cert.Gcn.hidden128 (edgeSum128 x0 x1 x2) (coeffCol x1) (shapeCast S1x128 x3 shapeCasts_S128_S1x128))
    (truncf (F := Ideal) .bf16 x4 bitsLt_bf16_f32) (coeffCol x1)

/-- Row `v`: the sum over the edges into `v` of the second region's row at the edge's source. -/
def edgeSum40 (x0 : FVec Ideal S50000x128 .f32) (x1 : IVec S2x800000 32) (x2 : FVec Ideal S128x128 .f32) (x3 : FVec Ideal S128 .f32) (x4 : FVec Ideal S128x40 .f32) : S50000x40.Idx → EReal :=
  Host.scatterAdd scatter_S50000x40_S850000x1_S850000x40_1_0_0_1
    (broadcastInDim S50000x40 ![] bcast_S_S50000x40 (constant (F := Ideal) S_ .f32 0x00000000#32))
    (scatterIdx x1)
    (Host.gather gather_S50000x40_S850000x1_S850000x40_1_0_n_n_0_1_140 (scaledProj40 x0 x1 x2 x3 x4) (gatherIdx x1))

/-- Third region: the second layer's output, then the row-wise log-softmax. -/
def kernelValue (x0 : FVec Ideal S50000x128 .f32) (x1 : IVec S2x800000 32) (x2 : FVec Ideal S128x128 .f32) (x3 : FVec Ideal S128 .f32) (x4 : FVec Ideal S128x40 .f32) (x5 : FVec Ideal S40 .f32) : S50000x40.Idx → EReal :=
  Cert.Gcn.logSoftmax40
    (Cert.Gcn.hidden40 (edgeSum40 x0 x1 x2 x3 x4) (coeffCol x1) (shapeCast S1x40 x5 shapeCasts_S40_S1x40))

/-- The result with every stage written out. -/
theorem kernelValue_eq (x0 : FVec Ideal S50000x128 .f32) (x1 : IVec S2x800000 32) (x2 : FVec Ideal S128x128 .f32) (x3 : FVec Ideal S128 .f32) (x4 : FVec Ideal S128x40 .f32) (x5 : FVec Ideal S40 .f32) :
    kernelValue x0 x1 x2 x3 x4 x5
      = Cert.Gcn.logSoftmax40 (Cert.Gcn.hidden40
          (Host.scatterAdd scatter_S50000x40_S850000x1_S850000x40_1_0_0_1
            (broadcastInDim S50000x40 ![] bcast_S_S50000x40 (constant (F := Ideal) S_ .f32 0x00000000#32))
            (scatterIdx x1)
            (Host.gather gather_S50000x40_S850000x1_S850000x40_1_0_n_n_0_1_140
              (Cert.Gcn.proj40
                (Cert.Gcn.hidden128
                  (Host.scatterAdd scatter_S50000x128_S850000x1_S850000x128_1_0_0_1
                    (broadcastInDim S50000x128 ![] bcast_S_S50000x128 (constant (F := Ideal) S_ .f32 0x00000000#32))
                    (scatterIdx x1)
                    (Host.gather gather_S50000x128_S850000x1_S850000x128_1_0_n_n_0_1_1128
                      (Cert.Gcn.proj128 x0 (truncf (F := Ideal) .bf16 x2 bitsLt_bf16_f32) (coeffCol x1))
                      (gatherIdx x1)))
                  (coeffCol x1) (shapeCast S1x128 x3 shapeCasts_S128_S1x128))
                (truncf (F := Ideal) .bf16 x4 bitsLt_bf16_f32) (coeffCol x1))
              (gatherIdx x1)))
          (coeffCol x1) (shapeCast S1x40 x5 shapeCasts_S40_S1x40)) := by
  unfold kernelValue edgeSum40 scaledProj40 edgeSum128 scaledProj128
  rfl

variable (m : (ℓ : Loc nD τ sig) → Buf (Elt Ideal) ℓ) (ρ : Dev nD → PrngReg) (c : Dev nD)

/-! ## A region's arrays, read at its entry, are the buffers the host stretches wrote -/

set_option maxHeartbeats 50000 in
theorem V3_arr0 : Gen.V3 m ρ c (Pipeline.arrRef spec0 0) = Gen.W3 m ρ c (Proc.devRef .tc main_arg0) := rfl

set_option maxHeartbeats 50000 in
theorem V3_arr1 : Gen.V3 m ρ c (Pipeline.arrRef spec0 1) = Gen.W3 m ρ c (Proc.devRef .tc main_v15) := rfl

set_option maxHeartbeats 50000 in
theorem V3_arr2 : Gen.V3 m ρ c (Pipeline.arrRef spec0 2) = Gen.W3 m ρ c (Proc.devRef .tc main_v17) := rfl

set_option maxHeartbeats 50000 in
theorem V5_arr0 : Gen.V5 m ρ c (Pipeline.arrRef spec1 0) = Gen.W5 m ρ c (Proc.devRef .tc main_v28) := rfl

set_option maxHeartbeats 50000 in
theorem V5_arr1 : Gen.V5 m ρ c (Pipeline.arrRef spec1 1) = Gen.W5 m ρ c (Proc.devRef .tc main_v29) := rfl

set_option maxHeartbeats 50000 in
theorem V5_arr2 : Gen.V5 m ρ c (Pipeline.arrRef spec1 2) = Gen.W5 m ρ c (Proc.devRef .tc main_v30) := rfl

set_option maxHeartbeats 50000 in
theorem V5_arr3 : Gen.V5 m ρ c (Pipeline.arrRef spec1 3) = Gen.W5 m ρ c (Proc.devRef .tc main_v16) := rfl

set_option maxHeartbeats 50000 in
theorem V7_arr0 : Gen.V7 m ρ c (Pipeline.arrRef spec2 0) = Gen.W7 m ρ c (Proc.devRef .tc main_v41) := rfl

set_option maxHeartbeats 50000 in
theorem V7_arr1 : Gen.V7 m ρ c (Pipeline.arrRef spec2 1) = Gen.W7 m ρ c (Proc.devRef .tc main_v42) := rfl

set_option maxHeartbeats 50000 in
theorem V7_arr2 : Gen.V7 m ρ c (Pipeline.arrRef spec2 2) = Gen.W7 m ρ c (Proc.devRef .tc main_v43) := rfl

/-! ## The first region's result, and the edge sum over it -/

set_option maxHeartbeats 200000 in
theorem W4_main_v18 : Gen.W4 m ρ c (Proc.devRef .tc main_v18) = scaledProj128 (m ((c : Thread nD τ).loc main_arg0)) (m ((c : Thread nD τ).loc main_arg1)) (m ((c : Thread nD τ).loc main_arg2)) := by
  refine (W4_arr m ρ c 3).trans ?_
  refine (RegionValue.final0 (Gen.V3 m ρ) c).trans ?_
  rw [V3_arr0, V3_arr1, V3_arr2, W3_main_arg0, W3_main_v15, W3_main_v17]
  unfold scaledProj128
  rfl

set_option maxHeartbeats 200000 in
theorem W5_main_v28_value : Gen.W5 m ρ c (Proc.devRef .tc main_v28) = edgeSum128 (m ((c : Thread nD τ).loc main_arg0)) (m ((c : Thread nD τ).loc main_arg1)) (m ((c : Thread nD τ).loc main_arg2)) := by
  refine (W5_main_v28 m ρ c).trans ?_
  rw [W4_main_v18]
  unfold edgeSum128
  rfl

/-! ## The second region's result, and the edge sum over it -/

set_option maxHeartbeats 200000 in
theorem W6_main_v31 : Gen.W6 m ρ c (Proc.devRef .tc main_v31) = scaledProj40 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ?_
  refine (RegionValue.final1 (Gen.V5 m ρ) c).trans ?_
  rw [V5_arr0, V5_arr1, V5_arr2, V5_arr3, W5_main_v28_value, W5_main_v29, W5_main_v30, W5_main_v16]
  unfold scaledProj40
  rfl

set_option maxHeartbeats 200000 in
theorem W7_main_v41_value : Gen.W7 m ρ c (Proc.devRef .tc main_v41) = edgeSum40 (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_main_v41 m ρ c).trans ?_
  rw [W6_main_v31]
  unfold edgeSum40
  rfl

/-! ## The program's result -/

set_option maxHeartbeats 200000 in
theorem W8_main_v44 : Gen.W8 m ρ c (Proc.devRef .tc main_v44) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ?_
  refine (RegionValue.final2 (Gen.V7 m ρ) c).trans ?_
  rw [V7_arr0, V7_arr1, V7_arr2, W7_main_v41_value, W7_main_v42, W7_main_v43]
  unfold kernelValue
  rfl

end Cert.KernelIdeal.HostValue
-- ==== Proof.RefRunValue.lean ====
/-
  The reference program's run with its result named: after the 137 host operations of @main, in order, the result
  buffer holds the composed value `val_main_v92` of the six arguments' launch contents, and the arguments are unchanged.

  The operations are cut into 7 consecutive windows. `Wk m c` is device `c`'s buffer contents after the first `k`
  windows (`W0`: the launch memory). At each boundary one lemma per buffer that a later window still reads says what
  that buffer holds: a buffer written inside the window holds its operation's function of the operands' contents, which
  unfolds to its `val_` term; a buffer written earlier, or an argument, is written by no operation of the window and
  keeps what the previous boundary gave it.
-/
import proofs.«172077_j42563125903764_2_alg».proof.Proof.RefRead

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- Running two lines of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Proves that no operation of the literal line `w` writes a given buffer: each operation writes exactly its result
    buffer, and that reference differs from the given one. -/
local macro "no_write " w:ident : tactic => `(tactic| (
  simp only [$w:ident, List.Forall, TRef.nullary, TRef.unary, TRef.binary, TRef.ternary,
    StableHlo.nullary_writes, StableHlo.unary_writes, StableHlo.binary_writes, StableHlo.ternary_writes,
    StableHlo.reshape_writes, Finset.mem_singleton]
  repeat' apply And.intro
  all_goals exact StableHlo.devRef_ne_of_ne (by decide)))

/-! ## Typed references whose type is the buffer's own

An operation of an inlined call is stated over typed references, and transports contents along the equation between
the buffer's type and the value's type. When that equation is reflexivity the transport is the identity and the
operation is the plain one over the buffers. The function is a variable here, so nothing but the transport unfolds. -/

theorem tnullary_plain (y : Ref sig .tc) (dy : y.space ≠ .host) (uy : y.isScoped = false) (v : y.ty.Contents (Elt F))
    (hy : y.space ≠ .host ∧ (y : DevRef τ sig).isScoped = false) :
    (TRef.nullary (TRef.of (T := y.ty) y rfl dy uy) v : HloOp τ sig (Elt F)) = StableHlo.nullary y v hy := rfl

theorem tunary_plain (x y : Ref sig .tc) (dx : x.space ≠ .host) (ux : x.isScoped = false)
    (dy : y.space ≠ .host) (uy : y.isScoped = false) (f : x.ty.Contents (Elt F) → y.ty.Contents (Elt F))
    (hx : x.space ≠ .host ∧ (x : DevRef τ sig).isScoped = false)
    (hy : y.space ≠ .host ∧ (y : DevRef τ sig).isScoped = false) :
    (TRef.unary (TRef.of (T := x.ty) x rfl dx ux) (TRef.of (T := y.ty) y rfl dy uy) f : HloOp τ sig (Elt F))
      = StableHlo.unary x y f hx hy := rfl

theorem tbinary_plain (a b y : Ref sig .tc) (da : a.space ≠ .host) (ua : a.isScoped = false)
    (db : b.space ≠ .host) (ub : b.isScoped = false) (dy : y.space ≠ .host) (uy : y.isScoped = false)
    (f : a.ty.Contents (Elt F) → b.ty.Contents (Elt F) → y.ty.Contents (Elt F))
    (ha : a.space ≠ .host ∧ (a : DevRef τ sig).isScoped = false)
    (hb : b.space ≠ .host ∧ (b : DevRef τ sig).isScoped = false)
    (hy : y.space ≠ .host ∧ (y : DevRef τ sig).isScoped = false) :
    (TRef.binary (TRef.of (T := a.ty) a rfl da ua) (TRef.of (T := b.ty) b rfl db ub) (TRef.of (T := y.ty) y rfl dy uy) f
        : HloOp τ sig (Elt F))
      = StableHlo.binary a b y f ha hb hy := rfl

/-! ## The windows -/

/-- Window 1, operations 1–22: the two rows of the index array sliced out and flattened, the first matrix product, an iota appended to each flattened row, the scatter-add of ones into zeros along the second extended row, its comparison with zero, its reciprocal square root, and the select between that and zero. -/
def w1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- Window 2, operations 23–41: each extended row with its negative entries shifted by the row count, the select's result gathered at both, and the product of the two gathers. -/
def w2 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

/-- Window 3, operations 42–64: the first extended row shifted likewise, the first matrix product gathered by rows at it, each gathered row scaled by the product of window 2, the scatter-add of the scaled rows into zeros, the fourth argument added to every row, the maximum with zero, and the second matrix product. -/
def w3 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

/-- Window 4, operations 65–81: an iota appended to each flattened row again, the scatter-add of ones, its comparison with zero, its reciprocal square root, and the select, again. -/
def w4 : List (HloOp τ sig (Elt F)) :=
  [ nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select ]

/-- Window 5, operations 82–100: the shifted rows, the two gathers and their product, again. -/
def w5 : List (HloOp τ sig (Elt F)) :=
  [ nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)) ]

/-- Window 6, operations 101–122: the second matrix product gathered by rows, scaled, scatter-added into zeros, the sixth argument added to every row, and the maximum with zero. -/
def w6 : List (HloOp τ sig (Elt F)) :=
  [ nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x40 ![0, 1] bcast_S850000x1_S850000x40_0_1 : (⟨S850000x1, .f32⟩ : BufTy).Contents (Elt F) → (⟨S850000x40, .f32⟩ : BufTy).Contents (Elt F)),
    binary main_v81 main_v83 main_v84 (mulf : (⟨S850000x40, .f32⟩ : BufTy).Contents (Elt F) → (⟨S850000x40, .f32⟩ : BufTy).Contents (Elt F) → (⟨S850000x40, .f32⟩ : BufTy).Contents (Elt F)),
    nullary main_cst_19 (constant S_ .f32 0x00000000#32),
    unary main_cst_19 main_v85 (broadcastInDim S50000x40 ![] bcast_S_S50000x40 : (⟨S_, .f32⟩ : BufTy).Contents (Elt F) → (⟨S50000x40, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S50000x40 ![0, 1] bcast_S1x40_S50000x40_0_1 : (⟨S1x40, .f32⟩ : BufTy).Contents (Elt F) → (⟨S50000x40, .f32⟩ : BufTy).Contents (Elt F)),
    binary main_v87 main_v89 main_v90 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x40, .f32⟩) main_call3_v0) (broadcastInDim S50000x40 ![] bcast_S_S50000x40),
    TRef.binary (TRef.of (T := ⟨S50000x40, .f32⟩) main_v90) (TRef.of (T := ⟨S50000x40, .f32⟩) main_call3_v0) (TRef.of (T := ⟨S50000x40, .f32⟩) main_v91) maximumf ]

/-- Window 7, operations 123–137: the maximum of every row subtracted from it, the exponential, the sum of every row, its logarithm, and the final subtraction. -/
def w7 : List (HloOp τ sig (Elt F)) :=
  [ TRef.nullary (TRef.of (T := ⟨S_, .f32⟩) main_call4_cst) (constant S_ .f32 0xFF800000#32),
    TRef.binary (TRef.of (T := ⟨S50000x40, .f32⟩) main_v91) (TRef.of (T := ⟨S_, .f32⟩) main_call4_cst) (TRef.of (T := ⟨S50000, .f32⟩) main_call4_v0) (fun x v => Host.reduce FloatOps.maximumf x v reducesTo_S50000x40_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x40, .f32⟩) main_call4_v4) (broadcastInDim S50000x40 ![0, 1] bcast_S50000x1_S50000x40_0_1),
    TRef.binary (TRef.of (T := ⟨S50000x40, .f32⟩) main_v91) (TRef.of (T := ⟨S50000x40, .f32⟩) main_call4_v4) (TRef.of (T := ⟨S50000x40, .f32⟩) main_call4_v5) subf,
    TRef.unary (TRef.of (T := ⟨S50000x40, .f32⟩) main_call4_v5) (TRef.of (T := ⟨S50000x40, .f32⟩) main_call4_v6) Host.exp,
    TRef.nullary (TRef.of (T := ⟨S_, .f32⟩) main_call4_cst_1) (constant S_ .f32 0x00000000#32),
    TRef.binary (TRef.of (T := ⟨S50000x40, .f32⟩) main_call4_v6) (TRef.of (T := ⟨S_, .f32⟩) main_call4_cst_1) (TRef.of (T := ⟨S50000, .f32⟩) main_call4_v7) (fun x v => Host.reduceAdd x v reducesTo_S50000x40_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x40, .f32⟩) main_call4_v10) (broadcastInDim S50000x40 ![0, 1] bcast_S50000x1_S50000x40_0_1),
    TRef.binary (TRef.of (T := ⟨S50000x40, .f32⟩) main_call4_v5) (TRef.of (T := ⟨S50000x40, .f32⟩) main_call4_v10) (TRef.of (T := ⟨S50000x40, .f32⟩) main_v92) subf ]

/-- Window 7 with every operation over the buffers themselves: the same functions, no transport. -/
def w7p : List (HloOp τ sig (Elt F)) :=
  [ nullary main_call4_cst ((constant S_ .f32 0xFF800000#32) : (⟨S_, .f32⟩ : BufTy).Contents (Elt F)),
    binary main_v91 main_call4_cst main_call4_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
    nullary main_call4_cst_0 ((constant S_ .f32 0xFF800000#32) : (⟨S_, .f32⟩ : BufTy).Contents (Elt F)),
    unary main_call4_cst_0 main_call4_v1 ((broadcastInDim S50000 ![] bcast_S_S50000) : (⟨S_, .f32⟩ : BufTy).Contents (Elt F) → (⟨S50000, .f32⟩ : BufTy).Contents (Elt F)),
    binary main_call4_v1 main_call4_v0 main_call4_v2 ((maximumf) : (⟨S50000, .f32⟩ : BufTy).Contents (Elt F) → (⟨S50000, .f32⟩ : BufTy).Contents (Elt F) → (⟨S50000, .f32⟩ : BufTy).Contents (Elt F)),
    unary main_call4_v2 main_call4_v3 ((broadcastInDim S50000x1 ![0] bcast_S50000_S50000x1_0) : (⟨S50000, .f32⟩ : BufTy).Contents (Elt F) → (⟨S50000x1, .f32⟩ : BufTy).Contents (Elt F)),
    unary main_call4_v3 main_call4_v4 ((broadcastInDim S50000x40 ![0, 1] bcast_S50000x1_S50000x40_0_1) : (⟨S50000x1, .f32⟩ : BufTy).Contents (Elt F) → (⟨S50000x40, .f32⟩ : BufTy).Contents (Elt F)),
    binary main_v91 main_call4_v4 main_call4_v5 ((subf) : (⟨S50000x40, .f32⟩ : BufTy).Contents (Elt F) → (⟨S50000x40, .f32⟩ : BufTy).Contents (Elt F) → (⟨S50000x40, .f32⟩ : BufTy).Contents (Elt F)),
    unary main_call4_v5 main_call4_v6 ((Host.exp) : (⟨S50000x40, .f32⟩ : BufTy).Contents (Elt F) → (⟨S50000x40, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    unary main_call4_v7 main_call4_v8 ((broadcastInDim S50000x1 ![0] bcast_S50000_S50000x1_0) : (⟨S50000, .f32⟩ : BufTy).Contents (Elt F) → (⟨S50000x1, .f32⟩ : BufTy).Contents (Elt F)),
    unary main_call4_v8 main_call4_v9 ((Host.log) : (⟨S50000x1, .f32⟩ : BufTy).Contents (Elt F) → (⟨S50000x1, .f32⟩ : BufTy).Contents (Elt F)),
    unary main_call4_v9 main_call4_v10 ((broadcastInDim S50000x40 ![0, 1] bcast_S50000x1_S50000x40_0_1) : (⟨S50000x1, .f32⟩ : BufTy).Contents (Elt F) → (⟨S50000x40, .f32⟩ : BufTy).Contents (Elt F)),
    binary main_call4_v5 main_call4_v10 main_v92 ((subf) : (⟨S50000x40, .f32⟩ : BufTy).Contents (Elt F) → (⟨S50000x40, .f32⟩ : BufTy).Contents (Elt F) → (⟨S50000x40, .f32⟩ : BufTy).Contents (Elt F)) ]

set_option maxHeartbeats 1000000 in
/-- The two spellings of window 7 are the same list, operation by operation. -/
theorem w7_plain : (w7 : List (HloOp τ sig (Elt F))) = w7p := by
  unfold w7 w7p
  refine List.cons_eq_cons.mpr ⟨tnullary_plain .., ?_⟩
  refine List.cons_eq_cons.mpr ⟨tbinary_plain .., ?_⟩
  refine List.cons_eq_cons.mpr ⟨tnullary_plain .., ?_⟩
  refine List.cons_eq_cons.mpr ⟨tunary_plain .., ?_⟩
  refine List.cons_eq_cons.mpr ⟨tbinary_plain .., ?_⟩
  refine List.cons_eq_cons.mpr ⟨tunary_plain .., ?_⟩
  refine List.cons_eq_cons.mpr ⟨tunary_plain .., ?_⟩
  refine List.cons_eq_cons.mpr ⟨tbinary_plain .., ?_⟩
  refine List.cons_eq_cons.mpr ⟨tunary_plain .., ?_⟩
  refine List.cons_eq_cons.mpr ⟨tnullary_plain .., ?_⟩
  refine List.cons_eq_cons.mpr ⟨tbinary_plain .., ?_⟩
  refine List.cons_eq_cons.mpr ⟨tunary_plain .., ?_⟩
  refine List.cons_eq_cons.mpr ⟨tunary_plain .., ?_⟩
  refine List.cons_eq_cons.mpr ⟨tunary_plain .., ?_⟩
  refine List.cons_eq_cons.mpr ⟨tbinary_plain .., ?_⟩
  rfl

/-- The program's operations are the 7 windows in order. -/
theorem ops_eq : (ops : List (HloOp τ sig (Elt F))) = w1 ++ (w2 ++ (w3 ++ (w4 ++ (w5 ++ (w6 ++ (w7)))))) := rfl

/-! ## The contents at the boundaries -/

/-- Device `c`'s buffer contents when @main starts: the launch memory. -/
def W0 (m : (ℓ : Loc nD τ sig) → Buf (Elt F) ℓ) (c : Dev nD) : Valuation τ sig (Elt F) := launchContents m c
/-- Device `c`'s buffer contents after window 1. -/
def W1 (m : (ℓ : Loc nD τ sig) → Buf (Elt F) ℓ) (c : Dev nD) : Valuation τ sig (Elt F) := after w1 (W0 m c)
/-- Device `c`'s buffer contents after window 2. -/
def W2 (m : (ℓ : Loc nD τ sig) → Buf (Elt F) ℓ) (c : Dev nD) : Valuation τ sig (Elt F) := after w2 (W1 m c)
/-- Device `c`'s buffer contents after window 3. -/
def W3 (m : (ℓ : Loc nD τ sig) → Buf (Elt F) ℓ) (c : Dev nD) : Valuation τ sig (Elt F) := after w3 (W2 m c)
/-- Device `c`'s buffer contents after window 4. -/
def W4 (m : (ℓ : Loc nD τ sig) → Buf (Elt F) ℓ) (c : Dev nD) : Valuation τ sig (Elt F) := after w4 (W3 m c)
/-- Device `c`'s buffer contents after window 5. -/
def W5 (m : (ℓ : Loc nD τ sig) → Buf (Elt F) ℓ) (c : Dev nD) : Valuation τ sig (Elt F) := after w5 (W4 m c)
/-- Device `c`'s buffer contents after window 6. -/
def W6 (m : (ℓ : Loc nD τ sig) → Buf (Elt F) ℓ) (c : Dev nD) : Valuation τ sig (Elt F) := after w6 (W5 m c)
/-- Device `c`'s buffer contents after window 7. -/
def W7 (m : (ℓ : Loc nD τ sig) → Buf (Elt F) ℓ) (c : Dev nD) : Valuation τ sig (Elt F) := after w7 (W6 m c)

/-- The contents after the whole program are the contents after the last window. -/
theorem after_ops (m : (ℓ : Loc nD τ sig) → Buf (Elt F) ℓ) (c : Dev nD) :
    after ops (launchContents m c) = W7 m c := by
  rw [ops_eq]
  simp only [after_append]
  rfl

section Boundaries

variable (m : (ℓ : Loc nD τ sig) → Buf (Elt F) ℓ) (c : Dev nD)

/-! ## The arguments: written by no operation, they hold the launch contents at every boundary -/

theorem W0_main_arg0 : W0 m c (Proc.devRef .tc main_arg0) = m ((c.tc : Thread nD τ).loc main_arg0) := rfl
theorem W0_main_arg1 : W0 m c (Proc.devRef .tc main_arg1) = m ((c.tc : Thread nD τ).loc main_arg1) := rfl
theorem W0_main_arg2 : W0 m c (Proc.devRef .tc main_arg2) = m ((c.tc : Thread nD τ).loc main_arg2) := rfl
theorem W0_main_arg3 : W0 m c (Proc.devRef .tc main_arg3) = m ((c.tc : Thread nD τ).loc main_arg3) := rfl
theorem W0_main_arg4 : W0 m c (Proc.devRef .tc main_arg4) = m ((c.tc : Thread nD τ).loc main_arg4) := rfl
theorem W0_main_arg5 : W0 m c (Proc.devRef .tc main_arg5) = m ((c.tc : Thread nD τ).loc main_arg5) := rfl
theorem W1_main_arg0 : W1 m c (Proc.devRef .tc main_arg0) = m ((c.tc : Thread nD τ).loc main_arg0) :=
  (after_of_forall_not_mem (b := Proc.devRef .tc main_arg0) w1 (W0 m c) (List.forall_iff_forall_mem.mp (by no_write w1))).trans (W0_main_arg0 m c)
theorem W1_main_arg1 : W1 m c (Proc.devRef .tc main_arg1) = m ((c.tc : Thread nD τ).loc main_arg1) :=
  (after_of_forall_not_mem (b := Proc.devRef .tc main_arg1) w1 (W0 m c) (List.forall_iff_forall_mem.mp (by no_write w1))).trans (W0_main_arg1 m c)
theorem W1_main_arg2 : W1 m c (Proc.devRef .tc main_arg2) = m ((c.tc : Thread nD τ).loc main_arg2) :=
  (after_of_forall_not_mem (b := Proc.devRef .tc main_arg2) w1 (W0 m c) (List.forall_iff_forall_mem.mp (by no_write w1))).trans (W0_main_arg2 m c)
theorem W1_main_arg3 : W1 m c (Proc.devRef .tc main_arg3) = m ((c.tc : Thread nD τ).loc main_arg3) :=
  (after_of_forall_not_mem (b := Proc.devRef .tc main_arg3) w1 (W0 m c) (List.forall_iff_forall_mem.mp (by no_write w1))).trans (W0_main_arg3 m c)
theorem W1_main_arg4 : W1 m c (Proc.devRef .tc main_arg4) = m ((c.tc : Thread nD τ).loc main_arg4) :=
  (after_of_forall_not_mem (b := Proc.devRef .tc main_arg4) w1 (W0 m c) (List.forall_iff_forall_mem.mp (by no_write w1))).trans (W0_main_arg4 m c)
theorem W1_main_arg5 : W1 m c (Proc.devRef .tc main_arg5) = m ((c.tc : Thread nD τ).loc main_arg5) :=
  (after_of_forall_not_mem (b := Proc.devRef .tc main_arg5) w1 (W0 m c) (List.forall_iff_forall_mem.mp (by no_write w1))).trans (W0_main_arg5 m c)
theorem W2_main_arg0 : W2 m c (Proc.devRef .tc main_arg0) = m ((c.tc : Thread nD τ).loc main_arg0) :=
  (after_of_forall_not_mem (b := Proc.devRef .tc main_arg0) w2 (W1 m c) (List.forall_iff_forall_mem.mp (by no_write w2))).trans (W1_main_arg0 m c)
theorem W2_main_arg1 : W2 m c (Proc.devRef .tc main_arg1) = m ((c.tc : Thread nD τ).loc main_arg1) :=
  (after_of_forall_not_mem (b := Proc.devRef .tc main_arg1) w2 (W1 m c) (List.forall_iff_forall_mem.mp (by no_write w2))).trans (W1_main_arg1 m c)
theorem W2_main_arg2 : W2 m c (Proc.devRef .tc main_arg2) = m ((c.tc : Thread nD τ).loc main_arg2) :=
  (after_of_forall_not_mem (b := Proc.devRef .tc main_arg2) w2 (W1 m c) (List.forall_iff_forall_mem.mp (by no_write w2))).trans (W1_main_arg2 m c)
theorem W2_main_arg3 : W2 m c (Proc.devRef .tc main_arg3) = m ((c.tc : Thread nD τ).loc main_arg3) :=
  (after_of_forall_not_mem (b := Proc.devRef .tc main_arg3) w2 (W1 m c) (List.forall_iff_forall_mem.mp (by no_write w2))).trans (W1_main_arg3 m c)
theorem W2_main_arg4 : W2 m c (Proc.devRef .tc main_arg4) = m ((c.tc : Thread nD τ).loc main_arg4) :=
  (after_of_forall_not_mem (b := Proc.devRef .tc main_arg4) w2 (W1 m c) (List.forall_iff_forall_mem.mp (by no_write w2))).trans (W1_main_arg4 m c)
theorem W2_main_arg5 : W2 m c (Proc.devRef .tc main_arg5) = m ((c.tc : Thread nD τ).loc main_arg5) :=
  (after_of_forall_not_mem (b := Proc.devRef .tc main_arg5) w2 (W1 m c) (List.forall_iff_forall_mem.mp (by no_write w2))).trans (W1_main_arg5 m c)
theorem W3_main_arg0 : W3 m c (Proc.devRef .tc main_arg0) = m ((c.tc : Thread nD τ).loc main_arg0) :=
  (after_of_forall_not_mem (b := Proc.devRef .tc main_arg0) w3 (W2 m c) (List.forall_iff_forall_mem.mp (by no_write w3))).trans (W2_main_arg0 m c)
theorem W3_main_arg1 : W3 m c (Proc.devRef .tc main_arg1) = m ((c.tc : Thread nD τ).loc main_arg1) :=
  (after_of_forall_not_mem (b := Proc.devRef .tc main_arg1) w3 (W2 m c) (List.forall_iff_forall_mem.mp (by no_write w3))).trans (W2_main_arg1 m c)
theorem W3_main_arg2 : W3 m c (Proc.devRef .tc main_arg2) = m ((c.tc : Thread nD τ).loc main_arg2) :=
  (after_of_forall_not_mem (b := Proc.devRef .tc main_arg2) w3 (W2 m c) (List.forall_iff_forall_mem.mp (by no_write w3))).trans (W2_main_arg2 m c)
theorem W3_main_arg3 : W3 m c (Proc.devRef .tc main_arg3) = m ((c.tc : Thread nD τ).loc main_arg3) :=
  (after_of_forall_not_mem (b := Proc.devRef .tc main_arg3) w3 (W2 m c) (List.forall_iff_forall_mem.mp (by no_write w3))).trans (W2_main_arg3 m c)
theorem W3_main_arg4 : W3 m c (Proc.devRef .tc main_arg4) = m ((c.tc : Thread nD τ).loc main_arg4) :=
  (after_of_forall_not_mem (b := Proc.devRef .tc main_arg4) w3 (W2 m c) (List.forall_iff_forall_mem.mp (by no_write w3))).trans (W2_main_arg4 m c)
theorem W3_main_arg5 : W3 m c (Proc.devRef .tc main_arg5) = m ((c.tc : Thread nD τ).loc main_arg5) :=
  (after_of_forall_not_mem (b := Proc.devRef .tc main_arg5) w3 (W2 m c) (List.forall_iff_forall_mem.mp (by no_write w3))).trans (W2_main_arg5 m c)
theorem W4_main_arg0 : W4 m c (Proc.devRef .tc main_arg0) = m ((c.tc : Thread nD τ).loc main_arg0) :=
  (after_of_forall_not_mem (b := Proc.devRef .tc main_arg0) w4 (W3 m c) (List.forall_iff_forall_mem.mp (by no_write w4))).trans (W3_main_arg0 m c)
theorem W4_main_arg1 : W4 m c (Proc.devRef .tc main_arg1) = m ((c.tc : Thread nD τ).loc main_arg1) :=
  (after_of_forall_not_mem (b := Proc.devRef .tc main_arg1) w4 (W3 m c) (List.forall_iff_forall_mem.mp (by no_write w4))).trans (W3_main_arg1 m c)
theorem W4_main_arg2 : W4 m c (Proc.devRef .tc main_arg2) = m ((c.tc : Thread nD τ).loc main_arg2) :=
  (after_of_forall_not_mem (b := Proc.devRef .tc main_arg2) w4 (W3 m c) (List.forall_iff_forall_mem.mp (by no_write w4))).trans (W3_main_arg2 m c)
theorem W4_main_arg3 : W4 m c (Proc.devRef .tc main_arg3) = m ((c.tc : Thread nD τ).loc main_arg3) :=
  (after_of_forall_not_mem (b := Proc.devRef .tc main_arg3) w4 (W3 m c) (List.forall_iff_forall_mem.mp (by no_write w4))).trans (W3_main_arg3 m c)
theorem W4_main_arg4 : W4 m c (Proc.devRef .tc main_arg4) = m ((c.tc : Thread nD τ).loc main_arg4) :=
  (after_of_forall_not_mem (b := Proc.devRef .tc main_arg4) w4 (W3 m c) (List.forall_iff_forall_mem.mp (by no_write w4))).trans (W3_main_arg4 m c)
theorem W4_main_arg5 : W4 m c (Proc.devRef .tc main_arg5) = m ((c.tc : Thread nD τ).loc main_arg5) :=
  (after_of_forall_not_mem (b := Proc.devRef .tc main_arg5) w4 (W3 m c) (List.forall_iff_forall_mem.mp (by no_write w4))).trans (W3_main_arg5 m c)
theorem W5_main_arg0 : W5 m c (Proc.devRef .tc main_arg0) = m ((c.tc : Thread nD τ).loc main_arg0) :=
  (after_of_forall_not_mem (b := Proc.devRef .tc main_arg0) w5 (W4 m c) (List.forall_iff_forall_mem.mp (by no_write w5))).trans (W4_main_arg0 m c)
theorem W5_main_arg1 : W5 m c (Proc.devRef .tc main_arg1) = m ((c.tc : Thread nD τ).loc main_arg1) :=
  (after_of_forall_not_mem (b := Proc.devRef .tc main_arg1) w5 (W4 m c) (List.forall_iff_forall_mem.mp (by no_write w5))).trans (W4_main_arg1 m c)
theorem W5_main_arg2 : W5 m c (Proc.devRef .tc main_arg2) = m ((c.tc : Thread nD τ).loc main_arg2) :=
  (after_of_forall_not_mem (b := Proc.devRef .tc main_arg2) w5 (W4 m c) (List.forall_iff_forall_mem.mp (by no_write w5))).trans (W4_main_arg2 m c)
theorem W5_main_arg3 : W5 m c (Proc.devRef .tc main_arg3) = m ((c.tc : Thread nD τ).loc main_arg3) :=
  (after_of_forall_not_mem (b := Proc.devRef .tc main_arg3) w5 (W4 m c) (List.forall_iff_forall_mem.mp (by no_write w5))).trans (W4_main_arg3 m c)
theorem W5_main_arg4 : W5 m c (Proc.devRef .tc main_arg4) = m ((c.tc : Thread nD τ).loc main_arg4) :=
  (after_of_forall_not_mem (b := Proc.devRef .tc main_arg4) w5 (W4 m c) (List.forall_iff_forall_mem.mp (by no_write w5))).trans (W4_main_arg4 m c)
theorem W5_main_arg5 : W5 m c (Proc.devRef .tc main_arg5) = m ((c.tc : Thread nD τ).loc main_arg5) :=
  (after_of_forall_not_mem (b := Proc.devRef .tc main_arg5) w5 (W4 m c) (List.forall_iff_forall_mem.mp (by no_write w5))).trans (W4_main_arg5 m c)
theorem W6_main_arg0 : W6 m c (Proc.devRef .tc main_arg0) = m ((c.tc : Thread nD τ).loc main_arg0) :=
  (after_of_forall_not_mem (b := Proc.devRef .tc main_arg0) w6 (W5 m c) (List.forall_iff_forall_mem.mp (by no_write w6))).trans (W5_main_arg0 m c)
theorem W6_main_arg1 : W6 m c (Proc.devRef .tc main_arg1) = m ((c.tc : Thread nD τ).loc main_arg1) :=
  (after_of_forall_not_mem (b := Proc.devRef .tc main_arg1) w6 (W5 m c) (List.forall_iff_forall_mem.mp (by no_write w6))).trans (W5_main_arg1 m c)
theorem W6_main_arg2 : W6 m c (Proc.devRef .tc main_arg2) = m ((c.tc : Thread nD τ).loc main_arg2) :=
  (after_of_forall_not_mem (b := Proc.devRef .tc main_arg2) w6 (W5 m c) (List.forall_iff_forall_mem.mp (by no_write w6))).trans (W5_main_arg2 m c)
theorem W6_main_arg3 : W6 m c (Proc.devRef .tc main_arg3) = m ((c.tc : Thread nD τ).loc main_arg3) :=
  (after_of_forall_not_mem (b := Proc.devRef .tc main_arg3) w6 (W5 m c) (List.forall_iff_forall_mem.mp (by no_write w6))).trans (W5_main_arg3 m c)
theorem W6_main_arg4 : W6 m c (Proc.devRef .tc main_arg4) = m ((c.tc : Thread nD τ).loc main_arg4) :=
  (after_of_forall_not_mem (b := Proc.devRef .tc main_arg4) w6 (W5 m c) (List.forall_iff_forall_mem.mp (by no_write w6))).trans (W5_main_arg4 m c)
theorem W6_main_arg5 : W6 m c (Proc.devRef .tc main_arg5) = m ((c.tc : Thread nD τ).loc main_arg5) :=
  (after_of_forall_not_mem (b := Proc.devRef .tc main_arg5) w6 (W5 m c) (List.forall_iff_forall_mem.mp (by no_write w6))).trans (W5_main_arg5 m c)
theorem W7_main_arg0 : W7 m c (Proc.devRef .tc main_arg0) = m ((c.tc : Thread nD τ).loc main_arg0) :=
  (after_of_forall_not_mem (b := Proc.devRef .tc main_arg0) w7 (W6 m c) (List.forall_iff_forall_mem.mp (by no_write w7))).trans (W6_main_arg0 m c)
theorem W7_main_arg1 : W7 m c (Proc.devRef .tc main_arg1) = m ((c.tc : Thread nD τ).loc main_arg1) :=
  (after_of_forall_not_mem (b := Proc.devRef .tc main_arg1) w7 (W6 m c) (List.forall_iff_forall_mem.mp (by no_write w7))).trans (W6_main_arg1 m c)
theorem W7_main_arg2 : W7 m c (Proc.devRef .tc main_arg2) = m ((c.tc : Thread nD τ).loc main_arg2) :=
  (after_of_forall_not_mem (b := Proc.devRef .tc main_arg2) w7 (W6 m c) (List.forall_iff_forall_mem.mp (by no_write w7))).trans (W6_main_arg2 m c)
theorem W7_main_arg3 : W7 m c (Proc.devRef .tc main_arg3) = m ((c.tc : Thread nD τ).loc main_arg3) :=
  (after_of_forall_not_mem (b := Proc.devRef .tc main_arg3) w7 (W6 m c) (List.forall_iff_forall_mem.mp (by no_write w7))).trans (W6_main_arg3 m c)
theorem W7_main_arg4 : W7 m c (Proc.devRef .tc main_arg4) = m ((c.tc : Thread nD τ).loc main_arg4) :=
  (after_of_forall_not_mem (b := Proc.devRef .tc main_arg4) w7 (W6 m c) (List.forall_iff_forall_mem.mp (by no_write w7))).trans (W6_main_arg4 m c)
theorem W7_main_arg5 : W7 m c (Proc.devRef .tc main_arg5) = m ((c.tc : Thread nD τ).loc main_arg5) :=
  (after_of_forall_not_mem (b := Proc.devRef .tc main_arg5) w7 (W6 m c) (List.forall_iff_forall_mem.mp (by no_write w7))).trans (W6_main_arg5 m c)

/-! ## Boundary 1 -/

set_option maxHeartbeats 1000000 in
/-- `main_v1`, written in window 1: its operation's function of the operands' contents, which is its `val_` term. -/
theorem W1_main_v1 : W1 m c (Proc.devRef .tc main_v1) = val_main_v1 (F := F) (m ((c.tc : Thread nD τ).loc main_arg1)) := by
  unfold W1 w1
  after_results
  rw [W0_main_arg1 m c]
  rfl
set_option maxHeartbeats 1000000 in
/-- `main_v3`, written in window 1: its operation's function of the operands' contents, which is its `val_` term. -/
theorem W1_main_v3 : W1 m c (Proc.devRef .tc main_v3) = val_main_v3 (F := F) (m ((c.tc : Thread nD τ).loc main_arg1)) := by
  unfold W1 w1
  after_results
  rw [W0_main_arg1 m c]
  rfl
set_option maxHeartbeats 1000000 in
/-- `main_v4`, written in window 1: its operation's function of the operands' contents, which is its `val_` term. -/
theorem W1_main_v4 : W1 m c (Proc.devRef .tc main_v4) = val_main_v4 (F := F) (m ((c.tc : Thread nD τ).loc main_arg0)) (m ((c.tc : Thread nD τ).loc main_arg2)) := by
  unfold W1 w1
  after_results
  rw [W0_main_arg0 m c, W0_main_arg2 m c]
  rfl
set_option maxHeartbeats 1000000 in
/-- `main_v6`, written in window 1: its operation's function of the operands' contents, which is its `val_` term. -/
theorem W1_main_v6 : W1 m c (Proc.devRef .tc main_v6) = val_main_v6 (F := F) (m ((c.tc : Thread nD τ).loc main_arg1)) := by
  unfold W1 w1
  after_results
  rw [W0_main_arg1 m c]
  rfl
set_option maxHeartbeats 1000000 in
/-- `main_v7`, written in window 1: its operation's function of the operands' contents, which is its `val_` term. -/
theorem W1_main_v7 : W1 m c (Proc.devRef .tc main_v7) = val_main_v7 (F := F) (m ((c.tc : Thread nD τ).loc main_arg1)) := by
  unfold W1 w1
  after_results
  rw [W0_main_arg1 m c]
  rfl
set_option maxHeartbeats 1000000 in
/-- `main_v15`, written in window 1: its operation's function of the operands' contents, which is its `val_` term. -/
theorem W1_main_v15 : W1 m c (Proc.devRef .tc main_v15) = val_main_v15 (F := F) (m ((c.tc : Thread nD τ).loc main_arg1)) := by
  unfold W1 w1
  after_results
  rw [W0_main_arg1 m c]
  rfl

/-! ## Boundary 2 -/

/-- `main_v1`, written in window 1: no operation of window 2 writes it. -/
theorem W2_main_v1 : W2 m c (Proc.devRef .tc main_v1) = val_main_v1 (F := F) (m ((c.tc : Thread nD τ).loc main_arg1)) :=
  (after_of_forall_not_mem (b := Proc.devRef .tc main_v1) w2 (W1 m c) (List.forall_iff_forall_mem.mp (by no_write w2))).trans (W1_main_v1 m c)
/-- `main_v3`, written in window 1: no operation of window 2 writes it. -/
theorem W2_main_v3 : W2 m c (Proc.devRef .tc main_v3) = val_main_v3 (F := F) (m ((c.tc : Thread nD τ).loc main_arg1)) :=
  (after_of_forall_not_mem (b := Proc.devRef .tc main_v3) w2 (W1 m c) (List.forall_iff_forall_mem.mp (by no_write w2))).trans (W1_main_v3 m c)
/-- `main_v4`, written in window 1: no operation of window 2 writes it. -/
theorem W2_main_v4 : W2 m c (Proc.devRef .tc main_v4) = val_main_v4 (F := F) (m ((c.tc : Thread nD τ).loc main_arg0)) (m ((c.tc : Thread nD τ).loc main_arg2)) :=
  (after_of_forall_not_mem (b := Proc.devRef .tc main_v4) w2 (W1 m c) (List.forall_iff_forall_mem.mp (by no_write w2))).trans (W1_main_v4 m c)
/-- `main_v6`, written in window 1: no operation of window 2 writes it. -/
theorem W2_main_v6 : W2 m c (Proc.devRef .tc main_v6) = val_main_v6 (F := F) (m ((c.tc : Thread nD τ).loc main_arg1)) :=
  (after_of_forall_not_mem (b := Proc.devRef .tc main_v6) w2 (W1 m c) (List.forall_iff_forall_mem.mp (by no_write w2))).trans (W1_main_v6 m c)
/-- `main_v7`, written in window 1: no operation of window 2 writes it. -/
theorem W2_main_v7 : W2 m c (Proc.devRef .tc main_v7) = val_main_v7 (F := F) (m ((c.tc : Thread nD τ).loc main_arg1)) :=
  (after_of_forall_not_mem (b := Proc.devRef .tc main_v7) w2 (W1 m c) (List.forall_iff_forall_mem.mp (by no_write w2))).trans (W1_main_v7 m c)
set_option maxHeartbeats 1000000 in
/-- `main_v30`, written in window 2: its operation's function of the operands' contents, which is its `val_` term. -/
theorem W2_main_v30 : W2 m c (Proc.devRef .tc main_v30) = val_main_v30 (F := F) (m ((c.tc : Thread nD τ).loc main_arg1)) := by
  unfold W2 w2
  after_results
  rw [W1_main_v15 m c, W1_main_v6 m c, W1_main_v7 m c]
  rfl

/-! ## Boundary 3 -/

/-- `main_v1`, written in window 1: no operation of window 3 writes it. -/
theorem W3_main_v1 : W3 m c (Proc.devRef .tc main_v1) = val_main_v1 (F := F) (m ((c.tc : Thread nD τ).loc main_arg1)) :=
  (after_of_forall_not_mem (b := Proc.devRef .tc main_v1) w3 (W2 m c) (List.forall_iff_forall_mem.mp (by no_write w3))).trans (W2_main_v1 m c)
/-- `main_v3`, written in window 1: no operation of window 3 writes it. -/
theorem W3_main_v3 : W3 m c (Proc.devRef .tc main_v3) = val_main_v3 (F := F) (m ((c.tc : Thread nD τ).loc main_arg1)) :=
  (after_of_forall_not_mem (b := Proc.devRef .tc main_v3) w3 (W2 m c) (List.forall_iff_forall_mem.mp (by no_write w3))).trans (W2_main_v3 m c)
set_option maxHeartbeats 1000000 in
/-- `main_v48`, written in window 3: its operation's function of the operands' contents, which is its `val_` term. -/
theorem W3_main_v48 : W3 m c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3 w3
  after_results
  rw [W2_main_v7 m c, W2_main_v4 m c, W2_main_v6 m c, W2_main_v30 m c, W2_main_arg3 m c, W2_main_arg4 m c]
  rfl

/-! ## Boundary 4 -/

/-- `main_v48`, written in window 3: no operation of window 4 writes it. -/
theorem W4_main_v48 : W4 m c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (after_of_forall_not_mem (b := Proc.devRef .tc main_v48) w4 (W3 m c) (List.forall_iff_forall_mem.mp (by no_write w4))).trans (W3_main_v48 m c)
set_option maxHeartbeats 1000000 in
/-- `main_v50`, written in window 4: its operation's function of the operands' contents, which is its `val_` term. -/
theorem W4_main_v50 : W4 m c (Proc.devRef .tc main_v50) = val_main_v50 (F := F) (m ((c.tc : Thread nD τ).loc main_arg1)) := by
  unfold W4 w4
  after_results
  rw [W3_main_v1 m c]
  rfl
set_option maxHeartbeats 1000000 in
/-- `main_v51`, written in window 4: its operation's function of the operands' contents, which is its `val_` term. -/
theorem W4_main_v51 : W4 m c (Proc.devRef .tc main_v51) = val_main_v51 (F := F) (m ((c.tc : Thread nD τ).loc main_arg1)) := by
  unfold W4 w4
  after_results
  rw [W3_main_v3 m c]
  rfl
set_option maxHeartbeats 1000000 in
/-- `main_v59`, written in window 4: its operation's function of the operands' contents, which is its `val_` term. -/
theorem W4_main_v59 : W4 m c (Proc.devRef .tc main_v59) = val_main_v59 (F := F) (m ((c.tc : Thread nD τ).loc main_arg1)) := by
  unfold W4 w4
  after_results
  rw [W3_main_v3 m c]
  rfl

/-! ## Boundary 5 -/

/-- `main_v48`, written in window 3: no operation of window 5 writes it. -/
theorem W5_main_v48 : W5 m c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (after_of_forall_not_mem (b := Proc.devRef .tc main_v48) w5 (W4 m c) (List.forall_iff_forall_mem.mp (by no_write w5))).trans (W4_main_v48 m c)
/-- `main_v50`, written in window 4: no operation of window 5 writes it. -/
theorem W5_main_v50 : W5 m c (Proc.devRef .tc main_v50) = val_main_v50 (F := F) (m ((c.tc : Thread nD τ).loc main_arg1)) :=
  (after_of_forall_not_mem (b := Proc.devRef .tc main_v50) w5 (W4 m c) (List.forall_iff_forall_mem.mp (by no_write w5))).trans (W4_main_v50 m c)
/-- `main_v51`, written in window 4: no operation of window 5 writes it. -/
theorem W5_main_v51 : W5 m c (Proc.devRef .tc main_v51) = val_main_v51 (F := F) (m ((c.tc : Thread nD τ).loc main_arg1)) :=
  (after_of_forall_not_mem (b := Proc.devRef .tc main_v51) w5 (W4 m c) (List.forall_iff_forall_mem.mp (by no_write w5))).trans (W4_main_v51 m c)
set_option maxHeartbeats 1000000 in
/-- `main_v74`, written in window 5: its operation's function of the operands' contents, which is its `val_` term. -/
theorem W5_main_v74 : W5 m c (Proc.devRef .tc main_v74) = val_main_v74 (F := F) (m ((c.tc : Thread nD τ).loc main_arg1)) := by
  unfold W5 w5
  after_results
  rw [W4_main_v59 m c, W4_main_v50 m c, W4_main_v51 m c]
  rfl

/-! ## Boundary 6 -/

set_option maxHeartbeats 1000000 in
/-- `main_v91`, written in window 6: its operation's function of the operands' contents, which is its `val_` term. -/
theorem W6_main_v91 : W6 m c (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold W6 w6
  after_results
  rw [W5_main_v51 m c, W5_main_v48 m c, W5_main_v50 m c, W5_main_v74 m c, W5_main_arg5 m c]
  rfl

/-! ## Boundary 7 -/

set_option maxHeartbeats 1000000 in
/-- `main_v92`, written in window 7: its operation's function of the operands' contents, which is its `val_` term. -/
theorem W7_main_v92 : W7 m c (Proc.devRef .tc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold W7
  rw [w7_plain]
  unfold w7p
  after_results
  rw [W6_main_v91 m c]
  rfl

end Boundaries

/-! ## The run -/

/-- The run of @main, in the form the library's theorem about a straight line of host operations gives it: from any memory
    with zero counters, every final state it speaks of has, on every device, the result buffer at `val_main_v92` of the
    six arguments' launch contents, and each argument's buffer at its launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans ((congrFun (after_ops m c) _).trans (W7_main_v92 m c)),
      (h c main_arg0).trans ((congrFun (after_ops m c) _).trans (W7_main_arg0 m c)),
      (h c main_arg1).trans ((congrFun (after_ops m c) _).trans (W7_main_arg1 m c)),
      (h c main_arg2).trans ((congrFun (after_ops m c) _).trans (W7_main_arg2 m c)),
      (h c main_arg3).trans ((congrFun (after_ops m c) _).trans (W7_main_arg3 m c)),
      (h c main_arg4).trans ((congrFun (after_ops m c) _).trans (W7_main_arg4 m c)),
      (h c main_arg5).trans ((congrFun (after_ops m c) _).trans (W7_main_arg5 m c))⟩)
    (run_seq scopedRefs_eq scopedSems_eq defs main (fun _ => ops) main_eq (fun _ => ops_sub) m ρ)

end Cert.ReferenceIdeal.RunValue

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.LayerLaw.lean ====
/-
  The normalisation of a graph-convolution layer may be split across the edge sum.

  A layer sums, over the edges that arrive at node `n`, the source node's row `X[src]` scaled by
  `dis[src] * dis[dst]`. Every edge in that sum has `dst = n`, so the second factor is the one number `dis[n]` on the
  whole sum, and `dis[n]` is a nonnegative real: multiplication by a nonnegative real distributes over a finite sum
  of extended reals, whatever the summands (the infinities included). Hence the edge sum of `X[src] * dis[src]`,
  scaled afterwards by `dis[n]`, is the same extended real. No finiteness of `X` is needed.

  The sum over arriving edges is the host's accumulating scatter along axis 0 (an update whose index is outside
  `[0, N)` lands nowhere), the rows are fetched by the host's gather along axis 0 (its index is clamped into
  `[0, N - 1]`): an update that lands at row `n` carries the index `n` itself, where the clamp moves nothing.
-/
import proofs.«172077_j42563125903764_2_alg».proof.Proof.LibSegmentSum

noncomputable section

open scoped BigOperators

namespace Cert.Gcn

open Idealize.ShloMosaic Idealize.ShloMosaic.ValueIdx Idealize.ShloMosaic.SegmentSum

/-- The layer law. `gi` holds the source nodes as gather indices, `ci` the destination nodes as scatter indices,
    `cgi` the destination nodes as gather indices (equal to `ci` wherever `ci` is not negative: the gather's
    spelling shifts negative entries only). -/
theorem layer_law {N E D w : Nat} (hN : 0 < N)
    (wfg : GatherDims.WF ⟨2, ![N, D]⟩ ⟨2, ![E, 1]⟩ ⟨2, ![E, D]⟩ [1] [0] [] [0] [] 1 ![1, D])
    (wfv : GatherDims.WF ⟨1, ![N]⟩ ⟨2, ![E, 1]⟩ ⟨1, ![E]⟩ [] [0] [] [0] [] 1 ![1])
    (wfs : ScatterDims.WF ⟨2, ![N, D]⟩ ⟨2, ![E, 1]⟩ ⟨2, ![E, D]⟩ [1] [0] [0] 1)
    (X : (⟨2, ![N, D]⟩ : Shape).Idx → EReal) (dis : (⟨1, ![N]⟩ : Shape).Idx → EReal)
    (hdis : ∀ n : Fin N, ∃ r : ℝ, 0 ≤ r ∧ dis (ix1 n) = (r : EReal))
    (gi cgi ci : IVec ⟨2, ![E, 1]⟩ w)
    (hc : ∀ e : Fin E, 0 ≤ (ci (ix2 e 0)).toInt → (cgi (ix2 e 0)).toInt = (ci (ix2 e 0)).toInt)
    (i : (⟨2, ![N, D]⟩ : Shape).Idx) :
    Ideal.hostScatterAdd (rowScatterDims N E D wfs) (fun _ => 0) ci
        (fun j => Host.gather (rowGatherDims N E D wfg) X gi j
          * (Host.gather (vecGatherDims N E wfv) dis gi (ix1 (j 0)) * Host.gather (vecGatherDims N E wfv) dis cgi (ix1 (j 0)))) i
      = Ideal.hostScatterAdd (rowScatterDims N E D wfs) (fun _ => 0) ci
          (Host.gather (rowGatherDims N E D wfg) (fun y => X y * dis (ix1 (y 0))) gi) i * dis (ix1 (i 0)) := by
  obtain ⟨r, hr0, hr⟩ := hdis (i 0)
  rw [hr]
  rw [← hostScatterAdd_zero_mul_fibre (rowScatterDims N E D wfs) ci
    (Host.gather (rowGatherDims N E D wfg) (fun y => X y * dis (ix1 (y 0))) gi)
    (fun j => Host.gather (vecGatherDims N E wfv) dis cgi (ix1 (j 0))) i r hr0 ?_]
  · -- the two update arrays are one function: the source coefficient moves next to the row it scales
    refine congrArg (fun U => Ideal.hostScatterAdd (rowScatterDims N E D wfs) (fun _ => 0) ci U i) (funext fun j => ?_)
    rw [rowGather_apply hN wfg X gi j, rowGather_apply hN wfg (fun y => X y * dis (ix1 (y 0))) gi j,
      vecGather_apply hN wfv dis gi (ix1 (j 0))]
    exact (mul_assoc _ _ _).symm
  · -- on the fibre of updates landing at row `i 0` the destination's coefficient is that row's
    intro j hj
    have hland := rowScatter_lands wfs ci j i hj
    have hnn : 0 ≤ (ci (ix2 (j 0) 0)).toInt := by rw [hland]; exact Int.natCast_nonneg _
    rw [vecGather_apply hN wfv dis cgi (ix1 (j 0))]
    rw [show clampRow N hN cgi ((ix1 (j 0) : (⟨1, ![E]⟩ : Shape).Idx) 0) = i 0 from
      clampRow_of_lands hN wfs ci cgi j i hj (hc (j 0) hnn)]
    exact hr

/-- The same law for any three records of dimension numbers that are the row gather, the vector gather and the row
    scatter at these sizes. -/
theorem layer_law_of_eq {N E D w : Nat} (hN : 0 < N)
    (wfg : GatherDims.WF ⟨2, ![N, D]⟩ ⟨2, ![E, 1]⟩ ⟨2, ![E, D]⟩ [1] [0] [] [0] [] 1 ![1, D])
    (wfv : GatherDims.WF ⟨1, ![N]⟩ ⟨2, ![E, 1]⟩ ⟨1, ![E]⟩ [] [0] [] [0] [] 1 ![1])
    (wfs : ScatterDims.WF ⟨2, ![N, D]⟩ ⟨2, ![E, 1]⟩ ⟨2, ![E, D]⟩ [1] [0] [0] 1)
    (dG : GatherDims ⟨2, ![N, D]⟩ ⟨2, ![E, 1]⟩ ⟨2, ![E, D]⟩) (dV : GatherDims ⟨1, ![N]⟩ ⟨2, ![E, 1]⟩ ⟨1, ![E]⟩)
    (dS : ScatterDims ⟨2, ![N, D]⟩ ⟨2, ![E, 1]⟩ ⟨2, ![E, D]⟩)
    (hG : dG = rowGatherDims N E D wfg) (hV : dV = vecGatherDims N E wfv) (hS : dS = rowScatterDims N E D wfs)
    (X : (⟨2, ![N, D]⟩ : Shape).Idx → EReal) (dis : (⟨1, ![N]⟩ : Shape).Idx → EReal)
    (hdis : ∀ n : Fin N, ∃ r : ℝ, 0 ≤ r ∧ dis (ix1 n) = (r : EReal))
    (gi cgi ci : IVec ⟨2, ![E, 1]⟩ w)
    (hc : ∀ e : Fin E, 0 ≤ (ci (ix2 e 0)).toInt → (cgi (ix2 e 0)).toInt = (ci (ix2 e 0)).toInt)
    (i : (⟨2, ![N, D]⟩ : Shape).Idx) :
    Ideal.hostScatterAdd dS (fun _ => 0) ci
        (fun j => Host.gather dG X gi j * (Host.gather dV dis gi (ix1 (j 0)) * Host.gather dV dis cgi (ix1 (j 0)))) i
      = Ideal.hostScatterAdd dS (fun _ => 0) ci (Host.gather dG (fun y => X y * dis (ix1 (y 0))) gi) i * dis (ix1 (i 0)) := by
  subst hG hV hS
  exact layer_law hN wfg wfv wfs X dis hdis gi cgi ci hc i

end Cert.Gcn

end
-- ==== Proof.RefValue.lean ====
/-
  The reference's first layer, read through the layer law.

  The reference scales every gathered source row by `dis[src] * dis[dst]` before it sums over the edges arriving at
  a node. Here that edge sum is shown to be the edge sum of the rows scaled by the SOURCE coefficient only, times the
  destination node's own coefficient — the form in which the other program computes it. Two facts feed the law: the
  coefficient `dis[n] = deg(n)^(-1/2)` (zero for a node of degree zero) is a nonnegative real, because the degree is a
  count of edges; and the destination index of an edge that arrives somewhere is not negative, so the gather's
  spelling of a negative index (shift by the number of nodes) leaves it as it is.
-/
import proofs.«172077_j42563125903764_2_alg».proof.Proof.RefRead
import proofs.«172077_j42563125903764_2_alg».proof.Proof.LayerLaw
import Idealize.ShloMosaic.Lib.IdealHost

noncomputable section

open scoped BigOperators

namespace Cert.Gcn.Ref

open Cert.ReferenceIdeal Cert.ReferenceIdeal.Gen Cert.ReferenceIdeal.Read
open Idealize.ShloMosaic Idealize.ShloMosaic.ValueIdx Idealize.ShloMosaic.SegmentSum

/-- A signed word that is not negative compares not-below zero, and the select on that comparison keeps it. -/
theorem select_slt_zero_of_nonneg (c a : BitVec 32) (h : 0 ≤ c.toInt) :
    Scalar.select (IntOp.cmpi .slt c 0#32) a c = c := by
  have hs : c.slt 0#32 = false := by
    simp only [BitVec.slt, BitVec.toInt_zero, decide_eq_false_iff_not, not_lt]; exact h
  unfold IntOp.cmpi Scalar.select
  simp only [hs]
  rfl

variable (x0 : (⟨S50000x128, .f32⟩ : BufTy).Contents (Elt Ideal)) (x1 : (⟨S2x800000, .i32⟩ : BufTy).Contents (Elt Ideal))
  (x2 : (⟨S128x128, .f32⟩ : BufTy).Contents (Elt Ideal))

/-- The scatter's zero operand of width 128 is the zero array. -/
theorem zeros128 : val_main_v41 (F := Ideal) = fun _ => (0 : EReal) := by
  funext i
  rw [val_main_v41_apply, val_main_cst_8_apply]
  exact Ideal.ofBits_zero_f32

/-- The degree count's zero operand and its updates of ones. -/
theorem zerosN : val_main_v9 (F := Ideal) = fun _ => (0 : EReal) := by
  funext i
  rw [val_main_v9_apply, val_main_cst_0_apply]
  exact Ideal.ofBits_zero_f32
theorem onesE : val_main_v8 (F := Ideal) = fun _ => (1 : EReal) := by
  funext i
  rw [val_main_v8_apply, val_main_cst_apply]
  exact Ideal.ofBits_one_f32

/-- The printed spelling of "inverse square root where positive, else zero" of one extended real, given the same in
    the extended reals' own operations. -/
theorem coeff_form (g : EReal) (r : ℝ)
    (hr : Scalar.select (Ideal.cmp .ogt g 0) (Ideal.rsqrt g) (0 : EReal) = (r : EReal)) :
    Scalar.select (FloatOps.cmpf (F := Ideal) (φ := .f32) .ogt g (FloatOps.ofBits (F := Ideal) .f32 0x00000000#32))
      (FloatOps.hostUnary (F := Ideal) (φ := .f32) .rsqrt g) (FloatOps.ofBits (F := Ideal) .f32 0x00000000#32) = (r : EReal) := by
  show Scalar.select (Ideal.cmp .ogt g (Ideal.ofBits .f32 0x00000000#32)) (Ideal.rsqrt g) (Ideal.ofBits .f32 0x00000000#32) = _
  rw [Ideal.ofBits_zero_f32]
  exact hr

/-- Over the extended reals the host's accumulating scatter is the exact sum, whatever its operands. -/
theorem scatterAdd_ideal {s si su : Shape} (d : ScatterDims s si su) {w : Nat} (x : s.Idx → EReal) (idx : IVec si w)
    (upd : su.Idx → EReal) :
    Host.scatterAdd (F := Ideal) (φ := .f32) d x idx upd = Ideal.hostScatterAdd d x idx upd := rfl

/-- The degree of a node: the accumulating scatter of ones at the destination indices into zeros. -/
theorem degree_eq :
    val_main_v11 (F := Ideal) x1
      = Ideal.hostScatterAdd scatter_S50000_S850000x1_S850000_n_0_0_1 (fun _ => (0 : EReal)) (val_main_v10 (F := Ideal) x1)
          (fun _ => (1 : EReal)) :=
  (congrArg₂ (fun z o => Host.scatterAdd (F := Ideal) (φ := .f32) scatter_S50000_S850000x1_S850000_n_0_0_1 z
      (val_main_v10 (F := Ideal) x1) o) zerosN onesE).trans
    (scatterAdd_ideal scatter_S50000_S850000x1_S850000_n_0_0_1 _ (val_main_v10 (F := Ideal) x1) _)

/-- The coefficient of every node is a nonnegative real: the inverse square root of a positive count, or zero. -/
theorem coeff_real (n : Fin 50000) : ∃ r : ℝ, 0 ≤ r ∧ val_main_v15 (F := Ideal) x1 (ix1 n) = (r : EReal) := by
  obtain ⟨r, hr0, hr⟩ := degree_coeff_real scatter_S50000_S850000x1_S850000_n_0_0_1 (val_main_v10 (F := Ideal) x1) (ix1 n)
  refine ⟨r, hr0, ?_⟩
  rw [val_main_v15_apply, val_main_v13_apply, val_main_v14_apply, val_main_call0_v1_apply, val_main_call0_v0_apply,
    val_main_cst_2_apply, val_main_v12_apply, val_main_cst_1_apply]
  rw [show val_main_v11 (F := Ideal) x1 (ix1 n) = _ from congrFun (degree_eq x1) (ix1 n)]
  exact coeff_form _ r hr

/-- Where the scatter's index is not negative, the gather's spelling of the same destination index is that index. -/
theorem dst_index_same (e : Fin 850000) (h : 0 ≤ (val_main_v42 (F := Ideal) x1 (ix2 e 0)).toInt) :
    (val_main_v28 (F := Ideal) x1 (ix2 e 0)).toInt = (val_main_v42 (F := Ideal) x1 (ix2 e 0)).toInt := by
  rw [val_main_v42_apply] at h ⊢
  rw [val_main_v28_apply, val_main_v27_apply, val_main_v24_apply, val_main_v23_apply, val_main_c_4_apply]
  have hi : idx_main_v28 (ix2 e 0) = idx_main_v42 (ix2 e 0) := rfl
  rw [hi]
  rw [select_slt_zero_of_nonneg _ _ h]

/-! ## The first layer's edge sum -/

/-- The printed dimension numbers are the general row gather, vector gather and row scatter at these sizes. -/
theorem gather128_eq : gather_S50000x128_S850000x1_S850000x128_1_0_n_n_0_1_1128 = rowGatherDims 50000 850000 128 (by decide) := rfl
theorem gatherVec_eq : gather_S50000_S850000x1_S850000_n_0_n_n_0_1_1 = vecGatherDims 50000 850000 (by decide) := rfl
theorem scatter128_eq : scatter_S50000x128_S850000x1_S850000x128_1_0_0_1 = rowScatterDims 50000 850000 128 (by decide) := rfl

/-- The source nodes are turned into gather indices twice by the same operations: the two arrays are one. -/
theorem srcIdx_eq : val_main_v21 (F := Ideal) x1 = val_main_v36 (F := Ideal) x1 := rfl

/-- Three products of extended reals, in the operations' spelling and in the field's. -/
theorem mulf3 (a b c : EReal) :
    FloatOps.mulf (F := Ideal) (φ := .f32) a (FloatOps.mulf (F := Ideal) (φ := .f32) b c) = a * (b * c) := rfl

/-- The gathered source rows, the source coefficients and the destination coefficients, each as the gather it is. -/
theorem rows_def : val_main_v37 (F := Ideal) x0 x1 x2
    = Host.gather gather_S50000x128_S850000x1_S850000x128_1_0_n_n_0_1_1128 (val_main_v4 (F := Ideal) x0 x2) (val_main_v36 (F := Ideal) x1) := rfl
theorem srcCoeff_def : val_main_v22 (F := Ideal) x1
    = Host.gather gather_S50000_S850000x1_S850000_n_0_n_n_0_1_1 (val_main_v15 (F := Ideal) x1) (val_main_v36 (F := Ideal) x1) :=
  congrArg (Host.gather gather_S50000_S850000x1_S850000_n_0_n_n_0_1_1 (val_main_v15 (F := Ideal) x1)) (srcIdx_eq x1)
theorem dstCoeff_def : val_main_v29 (F := Ideal) x1
    = Host.gather gather_S50000_S850000x1_S850000_n_0_n_n_0_1_1 (val_main_v15 (F := Ideal) x1) (val_main_v28 (F := Ideal) x1) := rfl

/-- The first layer's update array: the gathered source row times (source coefficient times destination
    coefficient), each coefficient a gather of the one coefficient vector. -/
theorem update1 :
    val_main_v40 (F := Ideal) x0 x1 x2
      = fun j => Host.gather gather_S50000x128_S850000x1_S850000x128_1_0_n_n_0_1_1128 (val_main_v4 (F := Ideal) x0 x2) (val_main_v36 (F := Ideal) x1) j
          * (Host.gather gather_S50000_S850000x1_S850000_n_0_n_n_0_1_1 (val_main_v15 (F := Ideal) x1) (val_main_v36 (F := Ideal) x1) (ix1 (j 0))
            * Host.gather gather_S50000_S850000x1_S850000_n_0_n_n_0_1_1 (val_main_v15 (F := Ideal) x1) (val_main_v28 (F := Ideal) x1) (ix1 (j 0))) :=
  funext fun j => by
    have he : idx_main_v38 (idx_main_v39 j) = ix1 (j 0) := funext fun a => match a with | ⟨0, _⟩ => rfl
    have hnorm : val_main_v39 (F := Ideal) x1 j
        = FloatOps.mulf (F := Ideal) (φ := .f32) (val_main_v22 (F := Ideal) x1 (ix1 (j 0))) (val_main_v29 (F := Ideal) x1 (ix1 (j 0))) :=
      (((val_main_v39_apply x1 j).trans (val_main_v38_apply x1 _)).trans (congrArg (val_main_v30 (F := Ideal) x1) he)).trans
        (val_main_v30_apply x1 _)
    refine ((val_main_v40_apply x0 x1 x2 j).trans (congrArg (FloatOps.mulf (F := Ideal) (φ := .f32) _) hnorm)).trans ?_
    refine (mulf3 _ _ _).trans ?_
    rw [congrFun (rows_def x0 x1 x2) j, congrFun (srcCoeff_def x1) (ix1 (j 0)), congrFun (dstCoeff_def x1) (ix1 (j 0))]

/-- The first layer's edge sum in the operations' own spelling: the exact sum of the update array over the edges
    arriving at each node, into zeros. -/
theorem scatter1_def : val_main_v43 (F := Ideal) x0 x1 x2
    = Ideal.hostScatterAdd scatter_S50000x128_S850000x1_S850000x128_1_0_0_1 (fun _ => (0 : EReal)) (val_main_v42 (F := Ideal) x1)
        (val_main_v40 (F := Ideal) x0 x1 x2) :=
  (congrArg (fun z => Host.scatterAdd (F := Ideal) (φ := .f32) scatter_S50000x128_S850000x1_S850000x128_1_0_0_1 z
      (val_main_v42 (F := Ideal) x1) (val_main_v40 (F := Ideal) x0 x1 x2)) zeros128).trans
    (scatterAdd_ideal scatter_S50000x128_S850000x1_S850000x128_1_0_0_1 _ (val_main_v42 (F := Ideal) x1) _)

/-- THE FIRST LAYER'S EDGE SUM: the sum over arriving edges of the source rows scaled by the source coefficient,
    times the node's own coefficient. -/
theorem edge_sum1 (i : S50000x128.Idx) :
    val_main_v43 (F := Ideal) x0 x1 x2 i
      = Ideal.hostScatterAdd scatter_S50000x128_S850000x1_S850000x128_1_0_0_1 (fun _ => (0 : EReal)) (val_main_v42 (F := Ideal) x1)
          (Host.gather gather_S50000x128_S850000x1_S850000x128_1_0_n_n_0_1_1128
            (fun y => val_main_v4 (F := Ideal) x0 x2 y * val_main_v15 (F := Ideal) x1 (ix1 (y 0))) (val_main_v36 (F := Ideal) x1)) i
        * val_main_v15 (F := Ideal) x1 (ix1 (i 0)) :=
  ((congrFun (scatter1_def x0 x1 x2) i).trans
    (congrArg (fun U => Ideal.hostScatterAdd scatter_S50000x128_S850000x1_S850000x128_1_0_0_1 (fun _ => (0 : EReal))
      (val_main_v42 (F := Ideal) x1) U i) (update1 x0 x1 x2))).trans
    (layer_law_of_eq (N := 50000) (E := 850000) (D := 128) (by decide) (by decide) (by decide) (by decide)
      gather_S50000x128_S850000x1_S850000x128_1_0_n_n_0_1_1128 gather_S50000_S850000x1_S850000_n_0_n_n_0_1_1
      scatter_S50000x128_S850000x1_S850000x128_1_0_0_1 gather128_eq gatherVec_eq scatter128_eq
      (val_main_v4 (F := Ideal) x0 x2) (val_main_v15 (F := Ideal) x1) (coeff_real x1)
      (val_main_v36 (F := Ideal) x1) (val_main_v28 (F := Ideal) x1) (val_main_v42 (F := Ideal) x1) (dst_index_same x1) i)

/-! ## The second layer: the same facts one layer down, where the reference recomputes the coefficient and the indices -/

variable (x3 : (⟨S128, .f32⟩ : BufTy).Contents (Elt Ideal)) (x4 : (⟨S128x40, .f32⟩ : BufTy).Contents (Elt Ideal))

/-- The scatter's zero operand of width 40 is the zero array. -/
theorem zeros40 : val_main_v85 (F := Ideal) = fun _ => (0 : EReal) := by
  funext i
  rw [val_main_v85_apply, val_main_cst_19_apply]
  exact Ideal.ofBits_zero_f32

/-- The degree count's zero operand and its updates of ones. -/
theorem zerosN2 : val_main_v53 (F := Ideal) = fun _ => (0 : EReal) := by
  funext i
  rw [val_main_v53_apply, val_main_cst_10_apply]
  exact Ideal.ofBits_zero_f32
theorem onesE2 : val_main_v52 (F := Ideal) = fun _ => (1 : EReal) := by
  funext i
  rw [val_main_v52_apply, val_main_cst_9_apply]
  exact Ideal.ofBits_one_f32

/-- The degree of a node: the accumulating scatter of ones at the destination indices into zeros. -/
theorem degree_eq2 :
    val_main_v55 (F := Ideal) x1
      = Ideal.hostScatterAdd scatter_S50000_S850000x1_S850000_n_0_0_1 (fun _ => (0 : EReal)) (val_main_v54 (F := Ideal) x1)
          (fun _ => (1 : EReal)) :=
  (congrArg₂ (fun z o => Host.scatterAdd (F := Ideal) (φ := .f32) scatter_S50000_S850000x1_S850000_n_0_0_1 z
      (val_main_v54 (F := Ideal) x1) o) zerosN2 onesE2).trans
    (scatterAdd_ideal scatter_S50000_S850000x1_S850000_n_0_0_1 _ (val_main_v54 (F := Ideal) x1) _)

/-- The coefficient of every node is a nonnegative real: the inverse square root of a positive count, or zero. -/
theorem coeff_real2 (n : Fin 50000) : ∃ r : ℝ, 0 ≤ r ∧ val_main_v59 (F := Ideal) x1 (ix1 n) = (r : EReal) := by
  obtain ⟨r, hr0, hr⟩ := degree_coeff_real scatter_S50000_S850000x1_S850000_n_0_0_1 (val_main_v54 (F := Ideal) x1) (ix1 n)
  refine ⟨r, hr0, ?_⟩
  rw [val_main_v59_apply, val_main_v57_apply, val_main_v58_apply, val_main_call2_v1_apply, val_main_call2_v0_apply,
    val_main_cst_12_apply, val_main_v56_apply, val_main_cst_11_apply]
  rw [show val_main_v55 (F := Ideal) x1 (ix1 n) = _ from congrFun (degree_eq2 x1) (ix1 n)]
  exact coeff_form _ r hr

/-- Where the scatter's index is not negative, the gather's spelling of the same destination index is that index. -/
theorem dst_index_same2 (e : Fin 850000) (h : 0 ≤ (val_main_v86 (F := Ideal) x1 (ix2 e 0)).toInt) :
    (val_main_v72 (F := Ideal) x1 (ix2 e 0)).toInt = (val_main_v86 (F := Ideal) x1 (ix2 e 0)).toInt := by
  rw [val_main_v86_apply] at h ⊢
  rw [val_main_v72_apply, val_main_v71_apply, val_main_v68_apply, val_main_v67_apply, val_main_c_15_apply]
  have hi : idx_main_v72 (ix2 e 0) = idx_main_v86 (ix2 e 0) := rfl
  rw [hi]
  rw [select_slt_zero_of_nonneg _ _ h]

/-- The printed dimension numbers of width 40 are the general row gather and row scatter at these sizes (the vector
    gather of the coefficients is the first layer's). -/
theorem gather40_eq : gather_S50000x40_S850000x1_S850000x40_1_0_n_n_0_1_140 = rowGatherDims 50000 850000 40 (by decide) := rfl
theorem scatter40_eq : scatter_S50000x40_S850000x1_S850000x40_1_0_0_1 = rowScatterDims 50000 850000 40 (by decide) := rfl

/-- The source nodes are turned into gather indices twice by the same operations: the two arrays are one. -/
theorem srcIdx_eq2 : val_main_v65 (F := Ideal) x1 = val_main_v80 (F := Ideal) x1 := rfl

/-- The gathered source rows, the source coefficients and the destination coefficients, each as the gather it is. -/
theorem rows_def2 : val_main_v81 (F := Ideal) x0 x1 x2 x3 x4
    = Host.gather gather_S50000x40_S850000x1_S850000x40_1_0_n_n_0_1_140 (val_main_v48 (F := Ideal) x0 x1 x2 x3 x4) (val_main_v80 (F := Ideal) x1) := rfl
theorem srcCoeff_def2 : val_main_v66 (F := Ideal) x1
    = Host.gather gather_S50000_S850000x1_S850000_n_0_n_n_0_1_1 (val_main_v59 (F := Ideal) x1) (val_main_v80 (F := Ideal) x1) :=
  congrArg (Host.gather gather_S50000_S850000x1_S850000_n_0_n_n_0_1_1 (val_main_v59 (F := Ideal) x1)) (srcIdx_eq2 x1)
theorem dstCoeff_def2 : val_main_v73 (F := Ideal) x1
    = Host.gather gather_S50000_S850000x1_S850000_n_0_n_n_0_1_1 (val_main_v59 (F := Ideal) x1) (val_main_v72 (F := Ideal) x1) := rfl

/-- The second layer's update array: the gathered source row times (source coefficient times destination
    coefficient), each coefficient a gather of the one coefficient vector. -/
theorem update2 :
    val_main_v84 (F := Ideal) x0 x1 x2 x3 x4
      = fun j => Host.gather gather_S50000x40_S850000x1_S850000x40_1_0_n_n_0_1_140 (val_main_v48 (F := Ideal) x0 x1 x2 x3 x4) (val_main_v80 (F := Ideal) x1) j
          * (Host.gather gather_S50000_S850000x1_S850000_n_0_n_n_0_1_1 (val_main_v59 (F := Ideal) x1) (val_main_v80 (F := Ideal) x1) (ix1 (j 0))
            * Host.gather gather_S50000_S850000x1_S850000_n_0_n_n_0_1_1 (val_main_v59 (F := Ideal) x1) (val_main_v72 (F := Ideal) x1) (ix1 (j 0))) :=
  funext fun j => by
    have he : idx_main_v82 (idx_main_v83 j) = ix1 (j 0) := funext fun a => match a with | ⟨0, _⟩ => rfl
    have hnorm : val_main_v83 (F := Ideal) x1 j
        = FloatOps.mulf (F := Ideal) (φ := .f32) (val_main_v66 (F := Ideal) x1 (ix1 (j 0))) (val_main_v73 (F := Ideal) x1 (ix1 (j 0))) :=
      (((val_main_v83_apply x1 j).trans (val_main_v82_apply x1 _)).trans (congrArg (val_main_v74 (F := Ideal) x1) he)).trans
        (val_main_v74_apply x1 _)
    refine ((val_main_v84_apply x0 x1 x2 x3 x4 j).trans (congrArg (FloatOps.mulf (F := Ideal) (φ := .f32) _) hnorm)).trans ?_
    refine (mulf3 _ _ _).trans ?_
    rw [congrFun (rows_def2 x0 x1 x2 x3 x4) j, congrFun (srcCoeff_def2 x1) (ix1 (j 0)), congrFun (dstCoeff_def2 x1) (ix1 (j 0))]

/-- The second layer's edge sum in the operations' own spelling: the exact sum of the update array over the edges
    arriving at each node, into zeros. -/
theorem scatter2_def : val_main_v87 (F := Ideal) x0 x1 x2 x3 x4
    = Ideal.hostScatterAdd scatter_S50000x40_S850000x1_S850000x40_1_0_0_1 (fun _ => (0 : EReal)) (val_main_v86 (F := Ideal) x1)
        (val_main_v84 (F := Ideal) x0 x1 x2 x3 x4) :=
  (congrArg (fun z => Host.scatterAdd (F := Ideal) (φ := .f32) scatter_S50000x40_S850000x1_S850000x40_1_0_0_1 z
      (val_main_v86 (F := Ideal) x1) (val_main_v84 (F := Ideal) x0 x1 x2 x3 x4)) zeros40).trans
    (scatterAdd_ideal scatter_S50000x40_S850000x1_S850000x40_1_0_0_1 _ (val_main_v86 (F := Ideal) x1) _)

/-- THE SECOND LAYER'S EDGE SUM: the sum over arriving edges of the source rows scaled by the source coefficient,
    times the node's own coefficient. -/
theorem edge_sum2 (i : S50000x40.Idx) :
    val_main_v87 (F := Ideal) x0 x1 x2 x3 x4 i
      = Ideal.hostScatterAdd scatter_S50000x40_S850000x1_S850000x40_1_0_0_1 (fun _ => (0 : EReal)) (val_main_v86 (F := Ideal) x1)
          (Host.gather gather_S50000x40_S850000x1_S850000x40_1_0_n_n_0_1_140
            (fun y => val_main_v48 (F := Ideal) x0 x1 x2 x3 x4 y * val_main_v59 (F := Ideal) x1 (ix1 (y 0))) (val_main_v80 (F := Ideal) x1)) i
        * val_main_v59 (F := Ideal) x1 (ix1 (i 0)) :=
  ((congrFun (scatter2_def x0 x1 x2 x3 x4) i).trans
    (congrArg (fun U => Ideal.hostScatterAdd scatter_S50000x40_S850000x1_S850000x40_1_0_0_1 (fun _ => (0 : EReal))
      (val_main_v86 (F := Ideal) x1) U i) (update2 x0 x1 x2 x3 x4))).trans
    (layer_law_of_eq (N := 50000) (E := 850000) (D := 40) (by decide) (by decide) (by decide) (by decide)
      gather_S50000x40_S850000x1_S850000x40_1_0_n_n_0_1_140 gather_S50000_S850000x1_S850000_n_0_n_n_0_1_1
      scatter_S50000x40_S850000x1_S850000x40_1_0_0_1 gather40_eq gatherVec_eq scatter40_eq
      (val_main_v48 (F := Ideal) x0 x1 x2 x3 x4) (val_main_v59 (F := Ideal) x1) (coeff_real2 x1)
      (val_main_v80 (F := Ideal) x1) (val_main_v72 (F := Ideal) x1) (val_main_v86 (F := Ideal) x1) (dst_index_same2 x1) i)

end Cert.Gcn.Ref

end
-- ==== Proof.RefRows.lean ====
/-
  The reference program's row-local steps, read entry by entry over the extended reals.

  The host computes each layer with whole-array operations: a product of two matrices, a vector of per-node
  coefficients multiplied into the rows, a bias vector spread over the rows, a clip at zero against a scalar spread
  over the array, and at the end a row-wise log-softmax assembled from a maximum and a sum along each row. Read at an
  entry `(n, q)`, each of these depends on row `n` alone: the product is a sum of 128 products of row `n` with column
  `q`; the coefficient is entry `n` of the vector, which is entry `(n, 0)` of the vector viewed as a column; the bias is
  entry `q` of the vector, which is entry `(0, q)` of it viewed as a one-row matrix; a change of float format leaves an
  extended real as it is. So each step is the corresponding function of the specification.
-/
import proofs.«172077_j42563125903764_2_alg».proof.Proof.RefRead
import proofs.«172077_j42563125903764_2_alg».proof.Proof.Spec
import proofs.«172077_j42563125903764_2_alg».proof.Proof.ColumnOps
import Idealize.ShloMosaic.Lib.Pipeline.Value
import Idealize.ShloMosaic.Lib.ValueLayout
import Idealize.ShloMosaic.PureOps.Ideal.Laws

noncomputable section

open scoped BigOperators

namespace Cert.Gcn.RefRows

open Cert.ReferenceIdeal Cert.ReferenceIdeal.Gen Cert.ReferenceIdeal.Read Idealize.ShloMosaic Idealize.ShloMosaic.ValueIdx
open Cert.KernelIdeal.RegionValue (broadcastTo_a1_ab_apply shapeCast_a_a1_apply)

/-! ## The two projections -/

/-- The host's first product at `(n, q)`: row `n` of the left matrix against column `q` of the weights. -/
theorem dot128_apply (l : FVec Ideal S50000x128 .f32) (r : FVec Ideal S128x128 .f32) (n : Fin 50000) (q : Fin 128) :
    Host.dotGeneral dot_S50000x128_S128x128_S50000x128_1_0_0_1_n_n none l r (ix2 n q) = ∑ k : Fin 128, l (ix2 n k) * r (ix2 k q) := by
  refine (val_main_v4_apply l r (ix2 n q)).trans (Finset.sum_congr rfl fun k _ => ?_)
  exact congrArg₂ (· * ·) (congrArg l (funext fun a => match a with | ⟨0, _⟩ => rfl | ⟨1, _⟩ => rfl))
    (congrArg r (funext fun a => match a with | ⟨0, _⟩ => rfl | ⟨1, _⟩ => rfl))

set_option maxHeartbeats 400000 in
/-- The host's second product at `(n, q)`, for any left matrix: a sum over the 128 contracted positions. -/
theorem dot40_apply (l : FVec Ideal S50000x128 .f32) (r : FVec Ideal S128x40 .f32) (n : Fin 50000) (q : Fin 40) :
    Host.dotGeneral dot_S50000x128_S128x40_S50000x40_1_0_0_1_n_n none l r (ix2 n q) = ∑ k : Fin 128, l (ix2 n k) * r (ix2 k q) := by
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 n q) ((contrEquiv1 dot_S50000x128_S128x40_S50000x40_1_0_0_1_n_n 128 rfl rfl).symm k) = ix2 n k := funext fun a => Fin.ext (by
    match a with
    | ⟨0, _⟩ => exact lhs_main_v48_0 _ _
    | ⟨1, _⟩ => exact (lhs_main_v48_1 _ _).trans hk)
  have er : dot_S50000x128_S128x40_S50000x40_1_0_0_1_n_n.rhsIdx (ix2 n q) ((contrEquiv1 dot_S50000x128_S128x40_S50000x40_1_0_0_1_n_n 128 rfl rfl).symm k) = ix2 k q := funext fun a => Fin.ext (by
    match a with
    | ⟨0, _⟩ => exact (rhs_main_v48_0 _ _).trans hk
    | ⟨1, _⟩ => exact rhs_main_v48_1 _ _)
  rw [el, er]

/-- The first projection of the specification is the host's product of the features with the weights (a change of
    format leaves an extended real as it is), every row times the node's coefficient read off the vector. -/
theorem proj128_ref (x0 : FVec Ideal S50000x128 .f32) (x2 : FVec Ideal S128x128 .f32) (dis : S50000.Idx → EReal)
    (hb : FTy.bits .bf16 < FTy.bits .f32) (h1 : S50000.ShapeCasts S50000x1) :
    Cert.Gcn.proj128 x0 (truncf .bf16 x2 hb) (shapeCast S50000x1 dis h1)
      = fun y => Host.dotGeneral dot_S50000x128_S128x128_S50000x128_1_0_0_1_n_n none x0 x2 y * dis (ix1 (y 0)) := by
  funext y
  obtain ⟨n, q, rfl⟩ : ∃ (n : Fin 50000) (q : Fin 128), y = ix2 n q := ⟨y 0, y 1, eq_ix2 y⟩
  show (∑ k : Fin 128, x0 (ix2 n k) * x2 (ix2 k q)) * shapeCast S50000x1 dis h1 (ix2 n (0 : Fin 1)) = _ * dis (ix1 n)
  exact congrArg₂ (· * ·) (dot128_apply x0 x2 n q).symm (shapeCast_a_a1_apply dis h1 n 0)

/-- The same for the second projection, from any matrix of hidden rows. -/
theorem proj40_ref (h : FVec Ideal S50000x128 .f32) (x4 : FVec Ideal S128x40 .f32) (dis : S50000.Idx → EReal)
    (hb : FTy.bits .bf16 < FTy.bits .f32) (h1 : S50000.ShapeCasts S50000x1) :
    Cert.Gcn.proj40 h (truncf .bf16 x4 hb) (shapeCast S50000x1 dis h1)
      = fun y => Host.dotGeneral dot_S50000x128_S128x40_S50000x40_1_0_0_1_n_n none h x4 y * dis (ix1 (y 0)) := by
  funext y
  obtain ⟨n, q, rfl⟩ : ∃ (n : Fin 50000) (q : Fin 40), y = ix2 n q := ⟨y 0, y 1, eq_ix2 y⟩
  show (∑ k : Fin 128, h (ix2 n k) * x4 (ix2 k q)) * shapeCast S50000x1 dis h1 (ix2 n (0 : Fin 1)) = _ * dis (ix1 n)
  exact congrArg₂ (· * ·) (dot40_apply h x4 n q).symm (shapeCast_a_a1_apply dis h1 n 0)

/-! ## The two bias-and-clip steps -/

set_option maxHeartbeats 400000 in
/-- The host's hidden layer of width 128, entry by entry: the edge sum times the node's coefficient, plus the bias
    (a vector spread over the rows), clipped at zero (a scalar spread over the array). The specification reads the
    same coefficient and bias off a column and a one-row matrix. -/
theorem hidden128_ref (a : S50000x128.Idx → EReal) (dis : S50000.Idx → EReal) (x3 : (⟨S128, .f32⟩ : BufTy).Contents (Elt Ideal))
    (h1 : S50000.ShapeCasts S50000x1) (h2 : S128.ShapeCasts S1x128) :
    (fun i => FloatOps.maximumf (F := Ideal) (φ := .f32) (FloatOps.addf (F := Ideal) (φ := .f32) (a i * dis (ix1 (i 0))) (val_main_v45 (F := Ideal) x3 i)) (val_main_call1_v0 (F := Ideal) i))
      = Cert.Gcn.hidden128 a (shapeCast S50000x1 dis h1) (shapeCast S1x128 x3 h2) := by
  funext i
  obtain ⟨n, k, rfl⟩ : ∃ (n : Fin 50000) (k : Fin 128), i = ix2 n k := ⟨i 0, i 1, eq_ix2 i⟩
  show max (a (ix2 n k) * dis (ix1 n) + val_main_v45 (F := Ideal) x3 (ix2 n k)) (val_main_call1_v0 (F := Ideal) (ix2 n k))
    = max (a (ix2 n k) * shapeCast S50000x1 dis h1 (ix2 n (0 : Fin 1)) + shapeCast S1x128 x3 h2 (ix2 (0 : Fin 1) k)) (Ideal.ofBits .f32 0x00000000#32)
  rw [val_main_v45_apply, val_main_v44_apply, val_main_call1_v0_apply, val_main_call1_cst_apply,
    shapeCast_a_a1_apply, shapeCast_a_1a_apply,
    show idx_main_v44 (idx_main_v45 (ix2 n k)) = ix1 k from funext fun a => match a with | ⟨0, _⟩ => rfl]
  rfl

set_option maxHeartbeats 400000 in
/-- The same at width 40. -/
theorem hidden40_ref (a : S50000x40.Idx → EReal) (dis : S50000.Idx → EReal) (x5 : (⟨S40, .f32⟩ : BufTy).Contents (Elt Ideal))
    (h1 : S50000.ShapeCasts S50000x1) (h2 : S40.ShapeCasts S1x40) :
    (fun i => FloatOps.maximumf (F := Ideal) (φ := .f32) (FloatOps.addf (F := Ideal) (φ := .f32) (a i * dis (ix1 (i 0))) (val_main_v89 (F := Ideal) x5 i)) (val_main_call3_v0 (F := Ideal) i))
      = Cert.Gcn.hidden40 a (shapeCast S50000x1 dis h1) (shapeCast S1x40 x5 h2) := by
  funext i
  obtain ⟨n, k, rfl⟩ : ∃ (n : Fin 50000) (k : Fin 40), i = ix2 n k := ⟨i 0, i 1, eq_ix2 i⟩
  show max (a (ix2 n k) * dis (ix1 n) + val_main_v89 (F := Ideal) x5 (ix2 n k)) (val_main_call3_v0 (F := Ideal) (ix2 n k))
    = max (a (ix2 n k) * shapeCast S50000x1 dis h1 (ix2 n (0 : Fin 1)) + shapeCast S1x40 x5 h2 (ix2 (0 : Fin 1) k)) (Ideal.ofBits .f32 0x00000000#32)
  rw [val_main_v89_apply, val_main_v88_apply, val_main_call3_v0_apply, val_main_call3_cst_apply,
    shapeCast_a_a1_apply, shapeCast_a_1a_apply,
    show idx_main_v88 (idx_main_v89 (ix2 n k)) = ix1 k from funext fun a => match a with | ⟨0, _⟩ => rfl]
  rfl

/-! ## The row-wise log-softmax -/

/-- The host's stages of the log-softmax as functions of the array `h` they are applied to: each row's maximum (a
    reduction from the pattern of `-∞`, then once more the larger of it and that pattern), -/
def refRowTop (h : FVec Ideal S50000x40 .f32) : FVec Ideal S50000 .f32 :=
  maximumf (val_main_call4_v1 (F := Ideal)) (Host.reduce (FloatOps.maximumf (F := Ideal) (φ := .f32)) h (val_main_call4_cst (F := Ideal)) reducesTo_S50000x40_S50000_d1 h_S_)

/-- every entry minus its row's maximum, -/
def refShifted (h : FVec Ideal S50000x40 .f32) : FVec Ideal S50000x40 .f32 :=
  subf h (broadcastInDim S50000x40 ![0, 1] bcast_S50000x1_S50000x40_0_1 (broadcastInDim S50000x1 ![0] bcast_S50000_S50000x1_0 (refRowTop h)))

/-- each row's sum of the exponentials of its shifted entries (a reduction from zero), -/
def refRowMass (h : FVec Ideal S50000x40 .f32) : FVec Ideal S50000 .f32 :=
  Host.reduceAdd (Host.exp (refShifted h)) (val_main_call4_cst_1 (F := Ideal)) reducesTo_S50000x40_S50000_d1 h_S_

/-- and every shifted entry minus the logarithm of its row's mass. -/
def refLogSoftmax (h : FVec Ideal S50000x40 .f32) : FVec Ideal S50000x40 .f32 :=
  subf (refShifted h) (broadcastInDim S50000x40 ![0, 1] bcast_S50000x1_S50000x40_0_1
    (Host.log (broadcastInDim S50000x1 ![0] bcast_S50000_S50000x1_0 (refRowMass h))))

section Stages
variable {α : Type}

/-- A vector of length 50000 viewed as a column reads, at `(n, u)`, its entry `n`. -/
theorem column_of_vector (v : S50000.Idx → α) (n : Fin 50000) (u : Fin 1) :
    broadcastInDim S50000x1 ![0] bcast_S50000_S50000x1_0 v (ix2 n u) = v (ix1 n) :=
  broadcastInDim_apply _ bcast_S50000_S50000x1_0 v (ix2 n u) (ix1 n) (fun a => match a with
    | ⟨0, _⟩ => by show n.val = if (50000 : Nat) = 1 then 0 else n.val; rw [if_neg (by decide)])

/-- A column spread over forty entries per row reads, at `(n, q)`, the column's entry of row `n`. -/
theorem spread_column (w : S50000x1.Idx → α) (n : Fin 50000) (q : Fin 40) :
    broadcastInDim S50000x40 ![0, 1] bcast_S50000x1_S50000x40_0_1 w (ix2 n q) = w (ix2 n (0 : Fin 1)) :=
  broadcastInDim_apply _ bcast_S50000x1_S50000x40_0_1 w (ix2 n q) (ix2 n (0 : Fin 1)) (fun a => match a with
    | ⟨0, _⟩ => by show n.val = if (50000 : Nat) = 1 then 0 else n.val; rw [if_neg (by decide)]
    | ⟨1, _⟩ => by show 0 = if (1 : Nat) = 1 then 0 else q.val; rw [if_pos rfl])

end Stages

/-- Dropping the second axis of a `[50000, 40]` array leaves a `[50000]` one. -/
theorem rowReduces : S50000x40.Reduces [1] S50000 := by decide

/-- Inserting column `c` into the row index `n` gives the entry `(n, c)`. -/
theorem column_insert (n : Fin 50000) (c : Fin 40) : rowReduces.lift (ix1 n) c = ix2 n c :=
  funext fun a => Fin.ext (by match a with | ⟨0, _⟩ => rfl | ⟨1, _⟩ => rfl)

/-- A fold of `max` is at least the value it starts from. -/
theorem start_le_rowMax (h : FVec Ideal S50000x40 .f32) (n : Fin 50000) :
    Ideal.ofBits .f32 0xFF800000#32 ≤ Cert.Gcn.rowMax40 h n := by
  unfold Cert.Gcn.rowMax40
  generalize Ideal.ofBits .f32 0xFF800000#32 = b
  exact (Finset.le_fold_max b).mpr (Or.inl le_rfl)

set_option maxHeartbeats 100000 in
/-- The host's reduction along a row from the pattern of `-∞` is the fold of `max` over the row's forty entries. -/
theorem rowFold_apply (h : FVec Ideal S50000x40 .f32) (n : Fin 50000) :
    Host.reduce (FloatOps.maximumf (F := Ideal) (φ := .f32)) h (val_main_call4_cst (F := Ideal)) reducesTo_S50000x40_S50000_d1 h_S_ (ix1 n)
      = Cert.Gcn.rowMax40 h n := by
  refine (Host.reduce_eq_fold_single (FloatOps.maximumf (F := Ideal) (φ := .f32)) h (val_main_call4_cst (F := Ideal))
    reducesTo_S50000x40_S50000_d1 rowReduces h_S_ (ix1 n)).trans ?_
  show Finset.fold max (Ideal.ofBits .f32 0xFF800000#32) (h ∘ rowReduces.lift (ix1 n)) Finset.univ = _
  unfold Cert.Gcn.rowMax40
  exact congrArg ((Finset.univ : Finset (Fin 40)).fold max (Ideal.ofBits .f32 0xFF800000#32)) (funext fun c => congrArg h (column_insert n c))

set_option maxHeartbeats 100000 in
/-- Each row's maximum is the specification's: taking the larger of the fold and the value it started from changes
    nothing. -/
theorem refRowTop_apply (h : FVec Ideal S50000x40 .f32) (n : Fin 50000) : refRowTop h (ix1 n) = Cert.Gcn.rowMax40 h n := by
  have h1 : val_main_call4_v1 (F := Ideal) (ix1 n) = Ideal.ofBits .f32 0xFF800000#32 :=
    (val_main_call4_v1_apply _).trans (val_main_call4_cst_0_apply _)
  unfold refRowTop
  rw [maximumf_apply, h1, rowFold_apply]
  exact max_eq_right (start_le_rowMax h n)

set_option maxHeartbeats 100000 in
theorem refShifted_apply (h : FVec Ideal S50000x40 .f32) (n : Fin 50000) (q : Fin 40) :
    refShifted h (ix2 n q) = h (ix2 n q) - Cert.Gcn.rowMax40 h n := by
  unfold refShifted
  rw [subf_apply]
  exact congrArg (h (ix2 n q) - ·) (((spread_column _ n q).trans (column_of_vector _ n 0)).trans (refRowTop_apply h n))

set_option maxHeartbeats 100000 in
/-- The host's sum along a row from the zero constant is the sum of the row's forty entries. -/
theorem rowSum_apply (y : FVec Ideal S50000x40 .f32) (n : Fin 50000) :
    Host.reduceAdd y (val_main_call4_cst_1 (F := Ideal)) reducesTo_S50000x40_S50000_d1 h_S_ (ix1 n) = ∑ c : Fin 40, y (ix2 n c) := by
  have hz : val_main_call4_cst_1 (F := Ideal) (Shape.Idx.first h_S_) = (0 : EReal) := Ideal.ofBits_zero_f32
  simp only [Host.reduceAdd, Ideal.hostReduceAdd_def]
  rw [Ideal.hostReduceAdd_single reducesTo_S50000x40_S50000_d1 rowReduces, hz, zero_add]
  exact Finset.sum_congr rfl fun c _ => congrArg y (column_insert n c)

set_option maxHeartbeats 100000 in
theorem refRowMass_apply (h : FVec Ideal S50000x40 .f32) (n : Fin 50000) :
    refRowMass h (ix1 n) = ∑ c : Fin 40, Ideal.exp (refShifted h (ix2 n c)) := by
  unfold refRowMass
  refine (rowSum_apply (Host.exp (refShifted h)) n).trans (Finset.sum_congr rfl fun c _ => ?_)
  show FloatOps.hostUnary (F := Ideal) (φ := .f32) .exp (refShifted h (ix2 n c)) = _
  rw [Ideal.hostUnary_exp_def]

set_option maxHeartbeats 100000 in
theorem refLogSoftmax_apply (h : FVec Ideal S50000x40 .f32) (n : Fin 50000) (q : Fin 40) :
    refLogSoftmax h (ix2 n q) = refShifted h (ix2 n q) - Ideal.log (refRowMass h (ix1 n)) := by
  unfold refLogSoftmax
  rw [subf_apply]
  refine congrArg (refShifted h (ix2 n q) - ·) ((spread_column _ n q).trans ?_)
  show FloatOps.hostUnary (F := Ideal) (φ := .f32) .log (broadcastInDim S50000x1 ![0] bcast_S50000_S50000x1_0 (refRowMass h) (ix2 n (0 : Fin 1))) = _
  rw [Ideal.hostUnary_log_def, column_of_vector]

/-- The specification's log-softmax at the entry `(n, q)`. -/
theorem logSoftmax40_apply (h : FVec Ideal S50000x40 .f32) (n : Fin 50000) (q : Fin 40) :
    Cert.Gcn.logSoftmax40 h (ix2 n q)
      = (h (ix2 n q) - Cert.Gcn.rowMax40 h n) - Ideal.log (∑ c : Fin 40, Ideal.exp (h (ix2 n c) - Cert.Gcn.rowMax40 h n)) := rfl

set_option maxHeartbeats 100000 in
/-- The host's stages, applied to any array, are the specification's row-wise log-softmax of it. -/
theorem refLogSoftmax_eq (h : FVec Ideal S50000x40 .f32) : refLogSoftmax h = Cert.Gcn.logSoftmax40 h := by
  funext i
  obtain ⟨n, q, rfl⟩ : ∃ (n : Fin 50000) (q : Fin 40), i = ix2 n q := ⟨i 0, i 1, eq_ix2 i⟩
  rw [logSoftmax40_apply, refLogSoftmax_apply, refRowMass_apply, refShifted_apply]
  refine congrArg (fun s => (h (ix2 n q) - Cert.Gcn.rowMax40 h n) - Ideal.log s) (Finset.sum_congr rfl fun c _ => ?_)
  exact congrArg Ideal.exp (refShifted_apply h n c)

set_option maxHeartbeats 100000 in
/-- The host's last result is those stages applied to the second layer's clipped activations: the program's own
    stage definitions, opened, are the same terms. -/
theorem result_eq_stages (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v92 (F := Ideal) x0 x1 x2 x3 x4 x5 = refLogSoftmax (val_main_v91 (F := Ideal) x0 x1 x2 x3 x4 x5) := by
  unfold val_main_v92 val_main_call4_v10 val_main_call4_v9 val_main_call4_v8 val_main_call4_v7 val_main_call4_v6
    val_main_call4_v5 val_main_call4_v4 val_main_call4_v3 val_main_call4_v2 val_main_call4_v0
    refLogSoftmax refRowMass refShifted refRowTop
  rfl

/-- The host's last result is the specification's row-wise log-softmax of the second layer's clipped activations. -/
theorem logSoftmax_ref (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v92 (F := Ideal) x0 x1 x2 x3 x4 x5 = Cert.Gcn.logSoftmax40 (val_main_v91 (F := Ideal) x0 x1 x2 x3 x4 x5) :=
  (result_eq_stages x0 x1 x2 x3 x4 x5).trans (refLogSoftmax_eq _)

end Cert.Gcn.RefRows

end
-- ==== Proof.KBridge.lean ====
import proofs.«172077_j42563125903764_2_alg».proof.Proof.KHost
import proofs.«172077_j42563125903764_2_alg».proof.Proof.RefRead

/-!
# The host side of the kernel program is the reference's own graph preparation

The reference builds, from the edge list alone and with the same operations, the edge endpoints with self
loops, the degree, the normalising coefficient and the two one-column index tables; the kernel program's
functions of the edge list are therefore the reference's stages, term for term. The reference's second layer
rebuilds all of these from the edge list by the same operations, so its second-layer stages equal its
first-layer ones; and within a layer the table it gathers the coefficient by at the sources equals the table
it gathers the features by.
-/

noncomputable section

namespace Cert.KernelIdeal.HostValue

open Cert.KernelIdeal Idealize.ShloMosaic

/-! ## The kernel program's functions of the edge list are the reference's first-layer stages -/

set_option maxHeartbeats 100000 in
theorem rowIdx_eq_val_main_v6 (x1 : IVec S2x800000 32) : rowIdx x1 = Cert.ReferenceIdeal.Read.val_main_v6 (F := Ideal) x1 := rfl

set_option maxHeartbeats 100000 in
theorem colIdx_eq_val_main_v7 (x1 : IVec S2x800000 32) : colIdx x1 = Cert.ReferenceIdeal.Read.val_main_v7 (F := Ideal) x1 := rfl

set_option maxHeartbeats 100000 in
theorem coeff_eq_val_main_v15 (x1 : IVec S2x800000 32) : coeff x1 = Cert.ReferenceIdeal.Read.val_main_v15 (F := Ideal) x1 := rfl

set_option maxHeartbeats 100000 in
theorem gatherIdx_eq_val_main_v36 (x1 : IVec S2x800000 32) : gatherIdx x1 = Cert.ReferenceIdeal.Read.val_main_v36 (F := Ideal) x1 := rfl

set_option maxHeartbeats 100000 in
theorem scatterIdx_eq_val_main_v42 (x1 : IVec S2x800000 32) : scatterIdx x1 = Cert.ReferenceIdeal.Read.val_main_v42 (F := Ideal) x1 := rfl

/-! ## The reference's second layer recomputes the first layer's stages -/

set_option maxHeartbeats 100000 in
theorem val_main_v59_eq_v15 (x1 : (⟨Cert.ReferenceIdeal.S2x800000, .i32⟩ : BufTy).Contents (Elt Ideal)) :
    Cert.ReferenceIdeal.Read.val_main_v59 (F := Ideal) x1 = Cert.ReferenceIdeal.Read.val_main_v15 (F := Ideal) x1 := rfl

set_option maxHeartbeats 100000 in
theorem val_main_v80_eq_v36 (x1 : (⟨Cert.ReferenceIdeal.S2x800000, .i32⟩ : BufTy).Contents (Elt Ideal)) :
    Cert.ReferenceIdeal.Read.val_main_v80 (F := Ideal) x1 = Cert.ReferenceIdeal.Read.val_main_v36 (F := Ideal) x1 := rfl

set_option maxHeartbeats 100000 in
theorem val_main_v86_eq_v42 (x1 : (⟨Cert.ReferenceIdeal.S2x800000, .i32⟩ : BufTy).Contents (Elt Ideal)) :
    Cert.ReferenceIdeal.Read.val_main_v86 (F := Ideal) x1 = Cert.ReferenceIdeal.Read.val_main_v42 (F := Ideal) x1 := rfl

set_option maxHeartbeats 100000 in
theorem val_main_v72_eq_v28 (x1 : (⟨Cert.ReferenceIdeal.S2x800000, .i32⟩ : BufTy).Contents (Elt Ideal)) :
    Cert.ReferenceIdeal.Read.val_main_v72 (F := Ideal) x1 = Cert.ReferenceIdeal.Read.val_main_v28 (F := Ideal) x1 := rfl

set_option maxHeartbeats 100000 in
theorem val_main_v65_eq_v21 (x1 : (⟨Cert.ReferenceIdeal.S2x800000, .i32⟩ : BufTy).Contents (Elt Ideal)) :
    Cert.ReferenceIdeal.Read.val_main_v65 (F := Ideal) x1 = Cert.ReferenceIdeal.Read.val_main_v21 (F := Ideal) x1 := rfl

/-! ## Within a layer: the source table used for the coefficient is the one used for the features -/

set_option maxHeartbeats 100000 in
theorem val_main_v36_eq_v21 (x1 : (⟨Cert.ReferenceIdeal.S2x800000, .i32⟩ : BufTy).Contents (Elt Ideal)) :
    Cert.ReferenceIdeal.Read.val_main_v36 (F := Ideal) x1 = Cert.ReferenceIdeal.Read.val_main_v21 (F := Ideal) x1 := rfl

end Cert.KernelIdeal.HostValue
-- ==== Proof.KNorm.lean ====
import proofs.«172077_j42563125903764_2_alg».proof.Proof.KBridge
import proofs.«172077_j42563125903764_2_alg».proof.Proof.KValue
import Idealize.ShloMosaic.PureOps.Ideal.Laws
import Idealize.ShloMosaic.Lib.Pipeline.Value

/-!
# The kernel program's two edge sums, over the reference's stages

Each edge sum of the kernel program adds, into zeros at the edges' destinations, the rows of a projected and
scaled feature matrix at the edges' sources. The destination table, the source table and the coefficient are
the reference's own stages of the same name (the first layer's for the wide sum, the second layer's copies for
the narrow one), the two programs' dimension records are the same records, the zero operand is the constant
function zero, and over the extended reals the accumulating scatter is the exact sum. So each edge sum is that
exact sum over the reference's tables of the kernel's projected rows.
-/

noncomputable section

namespace Cert.KernelIdeal.HostValue

open Cert.KernelIdeal Cert.KernelIdeal.Gen Idealize.ShloMosaic

/-! ## Small facts -/

/-- Over the extended reals the host's accumulating scatter is the exact sum. -/
theorem scatterAdd_ideal' {s si su : Shape} (d : ScatterDims s si su) {w : Nat} (x : s.Idx → EReal) (idx : IVec si w)
    (upd : su.Idx → EReal) :
    Host.scatterAdd (F := Ideal) (φ := .f32) d x idx upd = Ideal.hostScatterAdd d x idx upd := rfl

/-- The scalar zero pattern spread over a shape is the constant function zero. -/
theorem zeros128_eq : (broadcastInDim S50000x128 ![] bcast_S_S50000x128 (constant (F := Ideal) S_ .f32 0x00000000#32) : S50000x128.Idx → EReal) = fun _ => (0 : EReal) :=
  funext fun j => (broadcastInDim_apply ![] bcast_S_S50000x128 (constant (F := Ideal) S_ .f32 0x00000000#32) j
    (fun a => a.elim0) (fun a => a.elim0)).trans Ideal.ofBits_zero_f32

theorem zeros40_eq : (broadcastInDim S50000x40 ![] bcast_S_S50000x40 (constant (F := Ideal) S_ .f32 0x00000000#32) : S50000x40.Idx → EReal) = fun _ => (0 : EReal) :=
  funext fun j => (broadcastInDim_apply ![] bcast_S_S50000x40 (constant (F := Ideal) S_ .f32 0x00000000#32) j
    (fun a => a.elim0) (fun a => a.elim0)).trans Ideal.ofBits_zero_f32

/-- The two programs' dimension records are the same records. -/
theorem scatter128_eq_ref : scatter_S50000x128_S850000x1_S850000x128_1_0_0_1 = Cert.ReferenceIdeal.scatter_S50000x128_S850000x1_S850000x128_1_0_0_1 := rfl
theorem gather128_eq_ref : gather_S50000x128_S850000x1_S850000x128_1_0_n_n_0_1_1128 = Cert.ReferenceIdeal.gather_S50000x128_S850000x1_S850000x128_1_0_n_n_0_1_1128 := rfl
theorem scatter40_eq_ref : scatter_S50000x40_S850000x1_S850000x40_1_0_0_1 = Cert.ReferenceIdeal.scatter_S50000x40_S850000x1_S850000x40_1_0_0_1 := rfl
theorem gather40_eq_ref : gather_S50000x40_S850000x1_S850000x40_1_0_n_n_0_1_140 = Cert.ReferenceIdeal.gather_S50000x40_S850000x1_S850000x40_1_0_n_n_0_1_140 := rfl

/-- A gather followed by an accumulating scatter, with every operand replaced by an equal one. -/
theorem scatterGather_congr {s si su : Shape} {w : Nat}
    {d d' : ScatterDims s si su} {g g' : GatherDims s si su}
    {z z' : s.Idx → EReal} {i i' : IVec si w} {y y' : s.Idx → EReal} {j j' : IVec si w}
    (hd : d = d') (hg : g = g') (hz : z = z') (hi : i = i') (hy : y = y') (hj : j = j') :
    Host.scatterAdd (F := Ideal) (φ := .f32) d z i (Host.gather g y j)
      = Ideal.hostScatterAdd d' z' i' (Host.gather g' y' j') := by
  subst hd hg hz hi hy hj
  rfl

theorem proj128_congr {x : Cert.Gcn.NF128.Idx → EReal} {w : Cert.Gcn.WM1.Idx → EReal} {d d' : Cert.Gcn.NCol.Idx → EReal}
    (hd : d = d') : Cert.Gcn.proj128 x w d = Cert.Gcn.proj128 x w d' := by
  subst hd
  rfl

theorem proj40_congr {h h' : Cert.Gcn.NF128.Idx → EReal} {w : Cert.Gcn.WM2.Idx → EReal} {d d' : Cert.Gcn.NCol.Idx → EReal}
    (hh : h = h') (hd : d = d') : Cert.Gcn.proj40 h w d = Cert.Gcn.proj40 h' w d' := by
  subst hh hd
  rfl

/-! ## Each stage is its one-level body -/

theorem coeffCol_body (x1 : IVec S2x800000 32) :
    coeffCol x1 = shapeCast S50000x1 (coeff x1) shapeCasts_S50000_S50000x1 := rfl

theorem scaledProj128_body (x0 : FVec Ideal S50000x128 .f32) (x1 : IVec S2x800000 32) (x2 : FVec Ideal S128x128 .f32) :
    scaledProj128 x0 x1 x2 = Cert.Gcn.proj128 x0 (truncf (F := Ideal) .bf16 x2 bitsLt_bf16_f32) (coeffCol x1) := rfl

theorem edgeSum128_body (x0 : FVec Ideal S50000x128 .f32) (x1 : IVec S2x800000 32) (x2 : FVec Ideal S128x128 .f32) :
    edgeSum128 x0 x1 x2
      = Host.scatterAdd scatter_S50000x128_S850000x1_S850000x128_1_0_0_1 (broadcastInDim S50000x128 ![] bcast_S_S50000x128 (constant (F := Ideal) S_ .f32 0x00000000#32)) (scatterIdx x1)
          (Host.gather gather_S50000x128_S850000x1_S850000x128_1_0_n_n_0_1_1128 (scaledProj128 x0 x1 x2) (gatherIdx x1)) := rfl

theorem scaledProj40_body (x0 : FVec Ideal S50000x128 .f32) (x1 : IVec S2x800000 32) (x2 : FVec Ideal S128x128 .f32) (x3 : FVec Ideal S128 .f32) (x4 : FVec Ideal S128x40 .f32) :
    scaledProj40 x0 x1 x2 x3 x4
      = Cert.Gcn.proj40
          (Cert.Gcn.hidden128 (edgeSum128 x0 x1 x2) (coeffCol x1) (shapeCast S1x128 x3 shapeCasts_S128_S1x128))
          (truncf (F := Ideal) .bf16 x4 bitsLt_bf16_f32) (coeffCol x1) := rfl

theorem edgeSum40_body (x0 : FVec Ideal S50000x128 .f32) (x1 : IVec S2x800000 32) (x2 : FVec Ideal S128x128 .f32) (x3 : FVec Ideal S128 .f32) (x4 : FVec Ideal S128x40 .f32) :
    edgeSum40 x0 x1 x2 x3 x4
      = Host.scatterAdd scatter_S50000x40_S850000x1_S850000x40_1_0_0_1 (broadcastInDim S50000x40 ![] bcast_S_S50000x40 (constant (F := Ideal) S_ .f32 0x00000000#32)) (scatterIdx x1)
          (Host.gather gather_S50000x40_S850000x1_S850000x40_1_0_n_n_0_1_140 (scaledProj40 x0 x1 x2 x3 x4) (gatherIdx x1)) := rfl

/-! ## The coefficient column over the reference's coefficient, first and second layer -/

theorem coeffCol_ref (x1 : IVec S2x800000 32) :
    coeffCol x1 = shapeCast S50000x1 (Cert.ReferenceIdeal.Read.val_main_v15 (F := Ideal) x1) shapeCasts_S50000_S50000x1 :=
  (coeffCol_body x1).trans
    (congrArg (fun k : FVec Ideal S50000 .f32 => shapeCast S50000x1 k shapeCasts_S50000_S50000x1) (coeff_eq_val_main_v15 x1))

theorem coeffCol_ref2 (x1 : IVec S2x800000 32) :
    coeffCol x1 = shapeCast S50000x1 (Cert.ReferenceIdeal.Read.val_main_v59 (F := Ideal) x1) shapeCasts_S50000_S50000x1 :=
  (coeffCol_body x1).trans
    (congrArg (fun k : FVec Ideal S50000 .f32 => shapeCast S50000x1 k shapeCasts_S50000_S50000x1)
      ((coeff_eq_val_main_v15 x1).trans (val_main_v59_eq_v15 x1).symm))

/-! ## The wide edge sum -/

set_option maxHeartbeats 50000 in
theorem edgeSum128_ref (x0 : FVec Ideal S50000x128 .f32) (x1 : IVec S2x800000 32) (x2 : FVec Ideal S128x128 .f32) :
    edgeSum128 x0 x1 x2
      = Ideal.hostScatterAdd Cert.ReferenceIdeal.scatter_S50000x128_S850000x1_S850000x128_1_0_0_1 (fun _ => (0 : EReal)) (Cert.ReferenceIdeal.Read.val_main_v42 (F := Ideal) x1)
          (Host.gather Cert.ReferenceIdeal.gather_S50000x128_S850000x1_S850000x128_1_0_n_n_0_1_1128
            (Cert.Gcn.proj128 x0 (truncf (F := Ideal) .bf16 x2 bitsLt_bf16_f32)
              (shapeCast S50000x1 (Cert.ReferenceIdeal.Read.val_main_v15 (F := Ideal) x1) shapeCasts_S50000_S50000x1))
            (Cert.ReferenceIdeal.Read.val_main_v36 (F := Ideal) x1)) :=
  (edgeSum128_body x0 x1 x2).trans
    (scatterGather_congr scatter128_eq_ref gather128_eq_ref zeros128_eq (scatterIdx_eq_val_main_v42 x1)
      ((scaledProj128_body x0 x1 x2).trans (proj128_congr (coeffCol_ref x1)))
      (gatherIdx_eq_val_main_v36 x1))

/-! ## The narrow edge sum, over the second layer's copies of the tables -/

set_option maxHeartbeats 50000 in
theorem edgeSum40_ref (x0 : FVec Ideal S50000x128 .f32) (x1 : IVec S2x800000 32) (x2 : FVec Ideal S128x128 .f32) (x3 : FVec Ideal S128 .f32) (x4 : FVec Ideal S128x40 .f32) (H : S50000x128.Idx → EReal)
    (hH : Cert.Gcn.hidden128 (edgeSum128 x0 x1 x2) (coeffCol x1) (shapeCast S1x128 x3 shapeCasts_S128_S1x128) = H) :
    edgeSum40 x0 x1 x2 x3 x4
      = Ideal.hostScatterAdd Cert.ReferenceIdeal.scatter_S50000x40_S850000x1_S850000x40_1_0_0_1 (fun _ => (0 : EReal)) (Cert.ReferenceIdeal.Read.val_main_v86 (F := Ideal) x1)
          (Host.gather Cert.ReferenceIdeal.gather_S50000x40_S850000x1_S850000x40_1_0_n_n_0_1_140
            (Cert.Gcn.proj40 H (truncf (F := Ideal) .bf16 x4 bitsLt_bf16_f32)
              (shapeCast S50000x1 (Cert.ReferenceIdeal.Read.val_main_v59 (F := Ideal) x1) shapeCasts_S50000_S50000x1))
            (Cert.ReferenceIdeal.Read.val_main_v80 (F := Ideal) x1)) :=
  (edgeSum40_body x0 x1 x2 x3 x4).trans
    (scatterGather_congr scatter40_eq_ref gather40_eq_ref zeros40_eq
      ((scatterIdx_eq_val_main_v42 x1).trans (val_main_v86_eq_v42 x1).symm)
      ((scaledProj40_body x0 x1 x2 x3 x4).trans (proj40_congr hH (coeffCol_ref2 x1)))
      ((gatherIdx_eq_val_main_v36 x1).trans (val_main_v80_eq_v36 x1).symm))

end Cert.KernelIdeal.HostValue
-- ==== Proof.Bridge.lean ====
/-
  The two programs compute one function.

  Layer by layer. The reference's first-layer activations are `relu (edge sum + bias)` with every edge's term scaled
  by the product of its two coefficients; by the layer law that edge sum is the sum of the rows scaled by the source
  coefficient alone, times the destination's coefficient, and the rows scaled by the source coefficient are what the
  other program's first projection produces. So the first-layer activations agree; the same argument one layer
  down, over those activations, gives the second layer's; and the row-wise log-softmax of equal arrays is equal.
-/
import proofs.«172077_j42563125903764_2_alg».proof.Proof.RefValue
import proofs.«172077_j42563125903764_2_alg».proof.Proof.RefRows
import proofs.«172077_j42563125903764_2_alg».proof.Proof.KNorm

noncomputable section

namespace Cert.KernelIdeal.HostValue

open Cert.KernelIdeal Cert.KernelIdeal.Gen Idealize.ShloMosaic Idealize.ShloMosaic.ValueIdx
open Cert.ReferenceIdeal.Read Cert.Gcn.Ref Cert.Gcn.RefRows

variable (x0 : FVec Ideal S50000x128 .f32) (x1 : IVec S2x800000 32) (x2 : FVec Ideal S128x128 .f32)
  (x3 : FVec Ideal S128 .f32) (x4 : FVec Ideal S128x40 .f32) (x5 : FVec Ideal S40 .f32)

/-- The reference's first projection is the host's matrix product of the features and the first weights. -/
theorem proj1_def : val_main_v4 (F := Ideal) x0 x2
    = Host.dotGeneral Cert.ReferenceIdeal.dot_S50000x128_S128x128_S50000x128_1_0_0_1_n_n none x0 x2 := rfl

/-- The reference's second projection is the host's matrix product of the first-layer activations and the second
    weights. -/
theorem proj2_def : val_main_v48 (F := Ideal) x0 x1 x2 x3 x4
    = Host.dotGeneral (φ₁ := .f32) Cert.ReferenceIdeal.dot_S50000x128_S128x40_S50000x40_1_0_0_1_n_n none (val_main_v47 (F := Ideal) x0 x1 x2 x3) x4 := rfl

/-- The other program's first edge sum is the edge sum the layer law leaves on the reference's side. -/
theorem edgeSum128_eq : edgeSum128 x0 x1 x2
    = Ideal.hostScatterAdd Cert.ReferenceIdeal.scatter_S50000x128_S850000x1_S850000x128_1_0_0_1 (fun _ => (0 : EReal)) (val_main_v42 (F := Ideal) x1)
        (Host.gather Cert.ReferenceIdeal.gather_S50000x128_S850000x1_S850000x128_1_0_n_n_0_1_1128
          (fun y => val_main_v4 (F := Ideal) x0 x2 y * val_main_v15 (F := Ideal) x1 (ix1 (y 0))) (val_main_v36 (F := Ideal) x1)) :=
  (edgeSum128_ref x0 x1 x2).trans
    (congrArg (fun P => Ideal.hostScatterAdd Cert.ReferenceIdeal.scatter_S50000x128_S850000x1_S850000x128_1_0_0_1 (fun _ => (0 : EReal))
        (val_main_v42 (F := Ideal) x1)
        (Host.gather Cert.ReferenceIdeal.gather_S50000x128_S850000x1_S850000x128_1_0_n_n_0_1_1128 P (val_main_v36 (F := Ideal) x1)))
      ((proj128_ref x0 x2 (val_main_v15 (F := Ideal) x1) bitsLt_bf16_f32 shapeCasts_S50000_S50000x1).trans
        (congrArg (fun M : S50000x128.Idx → EReal => fun y => M y * val_main_v15 (F := Ideal) x1 (ix1 (y 0))) (proj1_def x0 x2).symm)))

/-- THE FIRST LAYER'S ACTIVATIONS AGREE. -/
theorem hidden1_eq :
    Cert.Gcn.hidden128 (edgeSum128 x0 x1 x2) (coeffCol x1) (shapeCast S1x128 x3 shapeCasts_S128_S1x128)
      = val_main_v47 (F := Ideal) x0 x1 x2 x3 := by
  have hsum : ∀ i : S50000x128.Idx, val_main_v43 (F := Ideal) x0 x1 x2 i
      = edgeSum128 x0 x1 x2 i * val_main_v15 (F := Ideal) x1 (ix1 (i 0)) := fun i => by
    rw [edgeSum128_eq x0 x1 x2]
    exact edge_sum1 x0 x1 x2 i
  have hR : val_main_v47 (F := Ideal) x0 x1 x2 x3
      = fun i => FloatOps.maximumf (F := Ideal) (φ := .f32)
          (FloatOps.addf (F := Ideal) (φ := .f32) (edgeSum128 x0 x1 x2 i * val_main_v15 (F := Ideal) x1 (ix1 (i 0))) (val_main_v45 (F := Ideal) x3 i))
          (val_main_call1_v0 (F := Ideal) i) := by
    funext i
    rw [val_main_v47_apply, val_main_v46_apply, hsum i]
  rw [hR, coeffCol_ref x1]
  exact (hidden128_ref (edgeSum128 x0 x1 x2) (val_main_v15 (F := Ideal) x1) x3 shapeCasts_S50000_S50000x1 shapeCasts_S128_S1x128).symm

/-- The other program's second edge sum is the edge sum the layer law leaves on the reference's side. -/
theorem edgeSum40_eq : edgeSum40 x0 x1 x2 x3 x4
    = Ideal.hostScatterAdd Cert.ReferenceIdeal.scatter_S50000x40_S850000x1_S850000x40_1_0_0_1 (fun _ => (0 : EReal)) (val_main_v86 (F := Ideal) x1)
        (Host.gather Cert.ReferenceIdeal.gather_S50000x40_S850000x1_S850000x40_1_0_n_n_0_1_140
          (fun y => val_main_v48 (F := Ideal) x0 x1 x2 x3 x4 y * val_main_v59 (F := Ideal) x1 (ix1 (y 0))) (val_main_v80 (F := Ideal) x1)) :=
  (edgeSum40_ref x0 x1 x2 x3 x4 (val_main_v47 (F := Ideal) x0 x1 x2 x3) (hidden1_eq x0 x1 x2 x3)).trans
    (congrArg (fun P => Ideal.hostScatterAdd Cert.ReferenceIdeal.scatter_S50000x40_S850000x1_S850000x40_1_0_0_1 (fun _ => (0 : EReal))
        (val_main_v86 (F := Ideal) x1)
        (Host.gather Cert.ReferenceIdeal.gather_S50000x40_S850000x1_S850000x40_1_0_n_n_0_1_140 P (val_main_v80 (F := Ideal) x1)))
      ((proj40_ref (val_main_v47 (F := Ideal) x0 x1 x2 x3) x4 (val_main_v59 (F := Ideal) x1) bitsLt_bf16_f32 shapeCasts_S50000_S50000x1).trans
        (congrArg (fun M : S50000x40.Idx → EReal => fun y => M y * val_main_v59 (F := Ideal) x1 (ix1 (y 0))) (proj2_def x0 x1 x2 x3 x4).symm)))

/-- THE SECOND LAYER'S ACTIVATIONS AGREE. -/
theorem hidden2_eq :
    Cert.Gcn.hidden40 (edgeSum40 x0 x1 x2 x3 x4) (coeffCol x1) (shapeCast S1x40 x5 shapeCasts_S40_S1x40)
      = val_main_v91 (F := Ideal) x0 x1 x2 x3 x4 x5 := by
  have hsum : ∀ i : S50000x40.Idx, val_main_v87 (F := Ideal) x0 x1 x2 x3 x4 i
      = edgeSum40 x0 x1 x2 x3 x4 i * val_main_v59 (F := Ideal) x1 (ix1 (i 0)) := fun i => by
    rw [edgeSum40_eq x0 x1 x2 x3 x4]
    exact edge_sum2 x0 x1 x2 x3 x4 i
  have hR : val_main_v91 (F := Ideal) x0 x1 x2 x3 x4 x5
      = fun i => FloatOps.maximumf (F := Ideal) (φ := .f32)
          (FloatOps.addf (F := Ideal) (φ := .f32) (edgeSum40 x0 x1 x2 x3 x4 i * val_main_v59 (F := Ideal) x1 (ix1 (i 0))) (val_main_v89 (F := Ideal) x5 i))
          (val_main_call3_v0 (F := Ideal) i) := by
    funext i
    rw [val_main_v91_apply, val_main_v90_apply, hsum i]
  rw [hR, coeffCol_ref2 x1]
  exact (hidden40_ref (edgeSum40 x0 x1 x2 x3 x4) (val_main_v59 (F := Ideal) x1) x5 shapeCasts_S50000_S50000x1 shapeCasts_S40_S1x40).symm

/-- THE RESULTS AGREE: the reference's result is the other program's function of the same six arrays. -/
theorem ref_eq_kernel : val_main_v92 (F := Ideal) x0 x1 x2 x3 x4 x5 = kernelValue x0 x1 x2 x3 x4 x5 :=
  (logSoftmax_ref x0 x1 x2 x3 x4 x5).trans (congrArg Cert.Gcn.logSoftmax40 (hidden2_eq x0 x1 x2 x3 x4 x5).symm)

end Cert.KernelIdeal.HostValue

end
-- ==== Proof.lean ====
/-
  A two-layer graph convolution (symmetric normalisation with self-loops, bias, clip at zero) followed by a row-wise
  log-softmax, computed two ways over 50000 nodes and 850000 edges (the 800000 given ones and one loop per node).

  The reference scales every gathered source row by `dis[src] * dis[dst]`, with `dis = deg^(-1/2)` (zero at degree
  zero), and sums over the edges arriving at each node. The other program never forms that per-edge product: three
  row-tiled regions scale rows by the node's own coefficient — the projected features before the edge sum, the summed
  rows after it — and leave the edge sums (gather along the source index, accumulating scatter along the destination
  index) to the host. The two agree on the extended reals because, on the fibre of edges arriving at a node, the
  destination coefficient is one nonnegative real, and a nonnegative real distributes over any finite sum of
  extended reals; nothing about the features' or the weights' finiteness is used. Matrix products into a zero
  accumulator, lane sums and lane maxima against the host's reductions, and the changes of float format, are the same
  numbers at the ideal values.

  The frames of the two printed kernels are the generated ones; the reference's frame is its run with the result
  dropped; the idealization rewrote no operation, so its ledger is empty.
-/
import proofs.«172077_j42563125903764_2_alg».proof.Defs
import proofs.«172077_j42563125903764_2_alg».proof.Proof.Gen.Kernel
import proofs.«172077_j42563125903764_2_alg».proof.Proof.Gen.Kernel.Skeleton
import proofs.«172077_j42563125903764_2_alg».proof.Proof.Gen.Kernel.Launch
import proofs.«172077_j42563125903764_2_alg».proof.Proof.Gen.Kernel.Points
import proofs.«172077_j42563125903764_2_alg».proof.Proof.Gen.Kernel.Frame
import proofs.«172077_j42563125903764_2_alg».proof.Proof.Gen.KernelIdeal
import proofs.«172077_j42563125903764_2_alg».proof.Proof.Gen.KernelIdeal.Skeleton
import proofs.«172077_j42563125903764_2_alg».proof.Proof.Gen.KernelIdeal.Launch
import proofs.«172077_j42563125903764_2_alg».proof.Proof.Gen.KernelIdeal.Points
import proofs.«172077_j42563125903764_2_alg».proof.Proof.Gen.KernelIdeal.Frame
import proofs.«172077_j42563125903764_2_alg».proof.Proof.Gen.ReferenceIdeal
import proofs.«172077_j42563125903764_2_alg».proof.Proof.Gen.Pre_finite_inputs
import proofs.«172077_j42563125903764_2_alg».proof.Proof.KRun
import proofs.«172077_j42563125903764_2_alg».proof.Proof.KValue
import proofs.«172077_j42563125903764_2_alg».proof.Proof.RefRunValue
import proofs.«172077_j42563125903764_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run, the statement about the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RunValue.run (F := Ideal) m ρ)

/-- The ideal pass rewrote nothing. -/
theorem preserves : Cert.preserves_Kernel_KernelIdeal := trivial

/-- From memories that agree on the six arguments both programs end with the same result array, `kernelValue` of the
    arguments: the kernel's run with its result read off the last region, the reference's run with its result the
    same function by the layer law. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.HostValue.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.W8_main_v44 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RunValue.run (F := Ideal) m' ρ')
    rw [(hagree c).1, (hagree c).2.1, (hagree c).2.2.1, (hagree c).2.2.2.1, (hagree c).2.2.2.2.1, (hagree c).2.2.2.2.2]
    exact Cert.KernelIdeal.HostValue.ref_eq_kernel _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
